-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S4096x7 : Shape := ⟨2, ![4096, 7]⟩
abbrev S256x64 : Shape := ⟨2, ![256, 64]⟩
abbrev S64 : Shape := ⟨1, ![64]⟩
abbrev S7x64 : Shape := ⟨2, ![7, 64]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S4096x7 : S_.BroadcastsInDim S4096x7 (![] : Fin 0 → Fin S4096x7.rank)
  reducesTo_S4096x7_S_d0_1 : S4096x7.ReducesTo [0, 1] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S7x64 : S_.BroadcastsInDim S7x64 (![] : Fin 0 → Fin S7x64.rank)
  reducesTo_S7x64_S_d0_1 : S7x64.ReducesTo [0, 1] S_

variable [Facts]

def fn_part2 {F : FTy → Type} [FloatOps F] (main_arg7 : FVec F S64 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg4 : FVec F S7x64 .f32) (main_arg5 : FVec F S64 .f32) (main_arg6 : FVec F S7x64 .f32) (main_arg7 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S7x64 .f32 := Host.absf main_arg4
  let main_cst_6 : FVec F S_ .f32 := constant S_ .f32 0x7F800000#32
  let main_v20 : FVec F S7x64 .f32 := broadcastInDim S7x64 ![] bcast_S_S7x64 main_cst_6
  let main_v21 : IVec S7x64 1 := cmpf .olt main_v19 main_v20
  let main_c_7 : IVec S_ 1 := constantI S_ 1 1#1
  let main_v22 : IVec S_ 1 := (fun x v => Host.reduce IntOp.andi x v reducesTo_S7x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S7x64 .f32 := Host.absf main_arg6
  let main_cst_10 : FVec F S_ .f32 := constant S_ .f32 0x7F800000#32
  let main_v30 : FVec F S7x64 .f32 := broadcastInDim S7x64 ![] bcast_S_S7x64 main_cst_10
  let main_v31 : IVec S7x64 1 := cmpf .olt main_v29 main_v30
  let main_c_11 : IVec S_ 1 := constantI S_ 1 1#1
  let main_v32 : IVec S_ 1 := (fun x v => Host.reduce IntOp.andi x v reducesTo_S7x64_S_d0_1 h_S_) main_v31 main_c_11
  let main_v33 : IVec S_ 1 := andi main_v28 main_v32
  fn_part2 (F := F) main_arg7 main_v33

def fn {F : FTy → Type} [FloatOps F] (main_arg0 : FVec F S50000x256 .f32) (main_arg1 : FVec F S4096x7 .f32) (main_arg2 : FVec F S256x64 .f32) (main_arg3 : FVec F S64 .f32) (main_arg4 : FVec F S7x64 .f32) (main_arg5 : FVec F S64 .f32) (main_arg6 : FVec F S7x64 .f32) (main_arg7 : FVec F S64 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S4096x7 .f32 := Host.absf main_arg1
  let main_cst_0 : FVec F S_ .f32 := constant S_ .f32 0x7F800000#32
  let main_v5 : FVec F S4096x7 .f32 := broadcastInDim S4096x7 ![] bcast_S_S4096x7 main_cst_0
  let main_v6 : IVec S4096x7 1 := cmpf .olt main_v4 main_v5
  let main_c_1 : IVec S_ 1 := constantI S_ 1 1#1
  let main_v7 : IVec S_ 1 := (fun x v => Host.reduce IntOp.andi x v reducesTo_S4096x7_S_d0_1 h_S_) main_v6 main_c_1
  let main_v8 : IVec S_ 1 := andi main_v3 main_v7
  let main_v9 : FVec F S256x64 .f32 := Host.absf main_arg2
  let main_cst_2 : FVec F S_ .f32 := constant S_ .f32 0x7F800000#32
  let main_v10 : FVec F S256x64 .f32 := broadcastInDim S256x64 ![] bcast_S_S256x64 main_cst_2
  let main_v11 : IVec S256x64 1 := cmpf .olt main_v9 main_v10
  let main_c_3 : IVec S_ 1 := constantI S_ 1 1#1
  let main_v12 : IVec S_ 1 := (fun x v => Host.reduce IntOp.andi x v reducesTo_S256x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_v13 main_v16
-- ==== Kernel.lean ====
abbrev S50000x256 : Shape := ⟨2, ![50000, 256]⟩
abbrev S4096x7 : Shape := ⟨2, ![4096, 7]⟩
abbrev S256x64 : Shape := ⟨2, ![256, 64]⟩
abbrev S64 : Shape := ⟨1, ![64]⟩
abbrev S7x64 : Shape := ⟨2, ![7, 64]⟩
abbrev S1x64 : Shape := ⟨2, ![1, 64]⟩
abbrev S4096x64 : Shape := ⟨2, ![4096, 64]⟩
abbrev S50000x64 : Shape := ⟨2, ![50000, 64]⟩
abbrev S256x256 : Shape := ⟨2, ![256, 256]⟩
abbrev S256x4096 : Shape := ⟨2, ![256, 4096]⟩
abbrev S256 : Shape := ⟨1, ![256]⟩
abbrev S256x1 : Shape := ⟨2, ![256, 1]⟩

abbrev nBuf : Space → Nat
  | .hbm => 20
  | .vmem => 8
  | .smem => 0
  | _ => 0

abbrev bufTy : (tb : Table) → Fin (tcTables nBuf tb) → BufTy
  | .hbm, ⟨0, _⟩ => ⟨S50000x256, .f32⟩
  | .hbm, ⟨1, _⟩ => ⟨S4096x7, .f32⟩
  | .hbm, ⟨2, _⟩ => ⟨S256x64, .f32⟩
  | .hbm, ⟨3, _⟩ => ⟨S64, .f32⟩
  | .hbm, ⟨4, _⟩ => ⟨S7x64, .f32⟩
  | .hbm, ⟨5, _⟩ => ⟨S64, .f32⟩
  | .hbm, ⟨6, _⟩ => ⟨S7x64, .f32⟩
  | .hbm, ⟨7, _⟩ => ⟨S64, .f32⟩
  | .hbm, ⟨8, _⟩ => ⟨S1x64, .f32⟩
  | .hbm, ⟨9, _⟩ => ⟨S4096x64, .f32⟩
  | .hbm, ⟨10, _⟩ => ⟨S1x64, .f32⟩
  | .hbm, ⟨11, _⟩ => ⟨S4096x64, .f32⟩
  | .hbm, ⟨12, _⟩ => ⟨S4096x64, .f32⟩
  | .hbm, ⟨13, _⟩ => ⟨S4096x64, .f32⟩
  | .hbm, ⟨14, _⟩ => ⟨S1x64, .f32⟩
  | .hbm, ⟨15, _⟩ => ⟨S4096x64, .f32⟩
  | .hbm, ⟨16, _⟩ => ⟨S4096x64, .f32⟩
  | .hbm, ⟨17, _⟩ => ⟨S4096x64, .bf16⟩
  | .hbm, ⟨18, _⟩ => ⟨S4096x64, .bf16⟩
  | .hbm, ⟨19, _⟩ => ⟨S50000x64, .f32⟩
  | .local _ .vmem, ⟨0, _⟩ => ⟨S256x256, .f32⟩
  | .local _ .vmem, ⟨1, _⟩ => ⟨S256x256, .f32⟩
  | .local _ .vmem, ⟨2, _⟩ => ⟨S256x64, .f32⟩
  | .local _ .vmem, ⟨3, _⟩ => ⟨S1x64, .f32⟩
  | .local _ .vmem, ⟨4, _⟩ => ⟨S4096x64, .bf16⟩
  | .local _ .vmem, ⟨5, _⟩ => ⟨S4096x64, .bf16⟩
  | .local _ .vmem, ⟨6, _⟩ => ⟨S256x64, .f32⟩
  | .local _ .vmem, ⟨7, _⟩ => ⟨S256x64, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![196], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S64_S1x64 : S64.ShapeCasts S1x64
  bcast_S64_S1x64_1 : S64.BroadcastsInDim S1x64 (![1] : Fin 1 → Fin S1x64.rank)
  bcast_S1x64_S4096x64_0_1 : S1x64.BroadcastsInDim S4096x64 (![0, 1] : Fin 2 → Fin S4096x64.rank)
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S256x64_S256x64_0_0 : ∀ a, (![0, 0] : Fin 2 → Nat) a + S256x64.size a ≤ S256x64.size a
  h_S256x64 : 0 < S256x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S256x64 : S1x64.Broadcasts S256x64
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  reduces_S256x4096_S256 : S256x4096.Reduces [1] S256
  shapeCasts_S256_S256x1 : S256.ShapeCasts S256x1
  broadcasts_S256x1_S256x4096 : S256x1.Broadcasts S256x4096
  dot_S4096x7_S7x64_S4096x64_1_0_0_1_n_n_wf : DotDims.WF S4096x7 S7x64 S4096x64 [1] [0] [0] [1] [] []
  dot_S256x256_S256x64_S256x64_1_0_0_1_n_n_wf : DotDims.WF S256x256 S256x64 S256x64 [1] [0] [0] [1] [] []
  dot_S256x64_S4096x64_S256x4096_1_1_0_0_n_n_wf : DotDims.WF S256x64 S4096x64 S256x4096 [1] [1] [0] [0] [] []
  dot_S256x4096_S4096x64_S256x64_1_0_0_1_n_n_wf : DotDims.WF S256x4096 S4096x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S256x256.size a < S50000x256.size a
  hwx0_0 : ∀ i : grid0.Coords, EltTy.bits .f32 = 32 ∨ (Rect.unit (s := S50000x256) (fun a => cc0_transform_0 i a * S256x256.size a) (fun a => (Pipeline.Clip.of (cc0_transform_0 i a) (S256x256.size a) (S50000x256.size a)).extent (S256x256.size a)) fun a => Pipeline.Clip.inb (Pipeline.Clip.ok_of (hstart0_0 i a))).WholeWords (EltTy.packing .f32)
  hwxs0_0 : ∀ i : grid0.Coords, EltTy.bits .f32 = 32 ∨ (Rect.unit (s := S256x256) (fun _ => 0) (fun a => (Pipeline.Clip.of (cc0_transform_0 i a) (S256x256.size a) (S50000x256.size a)).extent (S256x256.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x64.size a ≤ S4096x64.size a
  hwx0_3 : ∀ i : grid0.Coords, EltTy.bits .bf16 = 32 ∨ (Rect.block (s := S4096x64) S4096x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4096x64.size a ≤ S4096x64.size a
  hwx0_4 : ∀ i : grid0.Coords, EltTy.bits .bf16 = 32 ∨ (Rect.block (s := S4096x64) S4096x64.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hstart0_5 : ∀ (i : grid0.Coords) a, cc0_transform_5 i a * S256x64.size a < S50000x64.size a
  hwx0_5 : ∀ i : grid0.Coords, EltTy.bits .f32 = 32 ∨ (Rect.unit (s := S50000x64) (fun a => cc0_transform_5 i a * S256x64.size a) (fun a => (Pipeline.Clip.of (cc0_transform_5 i a) (S256x64.size a) (S50000x64.size a)).extent (S256x64.size a)) fun a => Pipeline.Clip.inb (Pipeline.Clip.ok_of (hstart0_5 i a))).WholeWords (EltTy.packing .f32)
  hwxs0_5 : ∀ i : grid0.Coords, EltTy.bits .f32 = 32 ∨ (Rect.unit (s := S256x64) (fun _ => 0) (fun a => (Pipeline.Clip.of (cc0_transform_5 i a) (S256x64.size a) (S50000x64.size a)).extent (S256x64.size a)) fun a => (Nat.zero_add _).trans_le (Pipeline.Clip.extent_le (Pipeline.Clip.ok_of (hstart0_5 i a)))).WholeWords (EltTy.packing .f32)

variable [Facts₀]

def dot_S4096x7_S7x64_S4096x64_1_0_0_1_n_n : DotDims S4096x7 S7x64 S4096x64 where
  lhsContracting := [1]
  rhsContracting := [0]
  lhsNonContracting := [0]
  rhsNonContracting := [1]
  lhsBatch := []
  rhsBatch := []
  wf := dot_S4096x7_S7x64_S4096x64_1_0_0_1_n_n_wf
def dot_S256x256_S256x64_S256x64_1_0_0_1_n_n : DotDims S256x256 S256x64 S256x64 where
  lhsContracting := [1]
  rhsContracting := [0]
  lhsNonContracting := [0]
  rhsNonContracting := [1]
  lhsBatch := []
  rhsBatch := []
  wf := dot_S256x256_S256x64_S256x64_1_0_0_1_n_n_wf
def dot_S256x64_S4096x64_S256x4096_1_1_0_0_n_n : DotDims S256x64 S4096x64 S256x4096 where
  lhsContracting := [1]
  rhsContracting := [1]
  lhsNonContracting := [0]
  rhsNonContracting := [0]
  lhsBatch := []
  rhsBatch := []
  wf := dot_S256x64_S4096x64_S256x4096_1_1_0_0_n_n_wf
def dot_S256x4096_S4096x64_S256x64_1_0_0_1_n_n : DotDims S256x4096 S4096x64 S256x64 where
  lhsContracting := [1]
  rhsContracting := [0]
  lhsNonContracting := [0]
  rhsNonContracting := [1]
  lhsBatch := []
  rhsBatch := []
  wf := dot_S256x4096_S4096x64_S256x64_1_0_0_1_n_n_wf

abbrev win0_0 : Pipeline.Window sig grid0 :=
  Pipeline.Window.ofSpecClip (Memref.whole main_arg0) S256x256.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_arg2) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S4096x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S4096x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpecClip (Memref.whole main_v11) S256x64.size cc0_transform_5 reads0_5 true false 2 stage0_5 sem0_5
    hrank0 hreads0_5 hstart0_5 nbuf0_5 (Memref.isWhole_whole _) hwx0_5 hwxs0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S50000x256 : Shape := ⟨2, ![50000, 256]⟩
abbrev S4096x7 : Shape := ⟨2, ![4096, 7]⟩
abbrev S256x64 : Shape := ⟨2, ![256, 64]⟩
abbrev S64 : Shape := ⟨1, ![64]⟩
abbrev S7x64 : Shape := ⟨2, ![7, 64]⟩
abbrev S50000x64 : Shape := ⟨2, ![50000, 64]⟩
abbrev S1x64 : Shape := ⟨2, ![1, 64]⟩
abbrev S4096x64 : Shape := ⟨2, ![4096, 64]⟩
abbrev S64x4096 : Shape := ⟨2, ![64, 4096]⟩
abbrev S50000x4096 : Shape := ⟨2, ![50000, 4096]⟩
abbrev S_ : Shape := ⟨0, ![]⟩
abbrev S50000 : Shape := ⟨1, ![50000]⟩
abbrev S50000x1 : Shape := ⟨2, ![50000, 1]⟩

abbrev nBuf : Space → Nat
  | .hbm => 49
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S4096x7, .f32⟩
  | .hbm, ⟨2, _⟩ => ⟨S256x64, .f32⟩
  | .hbm, ⟨3, _⟩ => ⟨S64, .f32⟩
  | .hbm, ⟨4, _⟩ => ⟨S7x64, .f32⟩
  | .hbm, ⟨5, _⟩ => ⟨S64, .f32⟩
  | .hbm, ⟨6, _⟩ => ⟨S7x64, .f32⟩
  | .hbm, ⟨7, _⟩ => ⟨S64, .f32⟩
  | .hbm, ⟨8, _⟩ => ⟨S50000x64, .f32⟩
  | .hbm, ⟨9, _⟩ => ⟨S1x64, .f32⟩
  | .hbm, ⟨10, _⟩ => ⟨S50000x64, .f32⟩
  | .hbm, ⟨11, _⟩ => ⟨S50000x64, .f32⟩
  | .hbm, ⟨12, _⟩ => ⟨S4096x64, .f32⟩
  | .hbm, ⟨13, _⟩ => ⟨S1x64, .f32⟩
  | .hbm, ⟨14, _⟩ => ⟨S4096x64, .f32⟩
  | .hbm, ⟨15, _⟩ => ⟨S4096x64, .f32⟩
  | .hbm, ⟨16, _⟩ => ⟨S4096x64, .f32⟩
  | .hbm, ⟨17, _⟩ => ⟨S1x64, .f32⟩
  | .hbm, ⟨18, _⟩ => ⟨S4096x64, .f32⟩
  | .hbm, ⟨19, _⟩ => ⟨S4096x64, .f32⟩
  | .hbm, ⟨20, _⟩ => ⟨S64x4096, .f32⟩
  | .hbm, ⟨21, _⟩ => ⟨S50000x4096, .f32⟩
  | .hbm, ⟨22, _⟩ => ⟨S_, .f32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000x1, .f32⟩
  | .hbm, ⟨28, _⟩ => ⟨S50000x4096, .f32⟩
  | .hbm, ⟨29, _⟩ => ⟨S50000x4096, .f32⟩
  | .hbm, ⟨30, _⟩ => ⟨S50000x4096, .f32⟩
  | .hbm, ⟨31, _⟩ => ⟨S_, .f32⟩
  | .hbm, ⟨32, _⟩ => ⟨S50000, .f32⟩
  | .hbm, ⟨33, _⟩ => ⟨S50000x1, .f32⟩
  | .hbm, ⟨34, _⟩ => ⟨S50000x4096, .f32⟩
  | .hbm, ⟨35, _⟩ => ⟨S50000x4096, .f32⟩
  | .hbm, ⟨36, _⟩ => ⟨S_, .f32⟩
  | .hbm, ⟨37, _⟩ => ⟨S50000x4096, .f32⟩
  | .hbm, ⟨38, _⟩ => ⟨S50000x4096, .f32⟩
  | .hbm, ⟨39, _⟩ => ⟨S_, .f32⟩
  | .hbm, ⟨40, _⟩ => ⟨S50000x4096, .f32⟩
  | .hbm, ⟨41, _⟩ => ⟨S50000x4096, .f32⟩
  | .hbm, ⟨42, _⟩ => ⟨S50000x4096, .f32⟩
  | .hbm, ⟨43, _⟩ => ⟨S_, .f32⟩
  | .hbm, ⟨44, _⟩ => ⟨S50000, .f32⟩
  | .hbm, ⟨45, _⟩ => ⟨S50000x1, .f32⟩
  | .hbm, ⟨46, _⟩ => ⟨S50000x4096, .f32⟩
  | .hbm, ⟨47, _⟩ => ⟨S50000x4096, .f32⟩
  | .hbm, ⟨48, _⟩ => ⟨S50000x64, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_cst_0 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_1 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_call0_cst : Ref sig .tc := ⟨.hbm, 36, rfl⟩
abbrev main_call0_v0 : Ref sig .tc := ⟨.hbm, 37, rfl⟩
abbrev main_v25 : Ref sig .tc := ⟨.hbm, 38, rfl⟩
abbrev main_cst_2 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_3 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S1x64_S4096x64_0_1 : S1x64.BroadcastsInDim S4096x64 (![0, 1] : Fin 2 → Fin S4096x64.rank)
  transposes_S4096x64_S64x4096_1_0 : S4096x64.Transposes [1, 0] S64x4096
  reducesTo_S50000x4096_S50000_d1 : S50000x4096.ReducesTo [1] S50000
  h_S_ : 0 < S_.numel
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x4096_0_1 : S50000x1.BroadcastsInDim S50000x4096 (![0, 1] : Fin 2 → Fin S50000x4096.rank)
  bcast_S_S50000x4096 : S_.BroadcastsInDim S50000x4096 (![] : Fin 0 → Fin S50000x4096.rank)
  dot_S50000x256_S256x64_S50000x64_1_0_0_1_n_n_wf : DotDims.WF S50000x256 S256x64 S50000x64 [1] [0] [0] [1] [] []
  dot_S4096x7_S7x64_S4096x64_1_0_0_1_n_n_wf : DotDims.WF S4096x7 S7x64 S4096x64 [1] [0] [0] [1] [] []
  dot_S50000x64_S64x4096_S50000x4096_1_0_0_1_n_n_wf : DotDims.WF S50000x64 S64x4096 S50000x4096 [1] [0] [0] [1] [] []
  dot_S50000x4096_S4096x64_S50000x64_1_0_0_1_n_n_wf : DotDims.WF S50000x4096 S4096x64 S50000x64 [1] [0] [0] [1] [] []

variable [Facts₀]

def dot_S50000x256_S256x64_S50000x64_1_0_0_1_n_n : DotDims S50000x256 S256x64 S50000x64 where
  lhsContracting := [1]
  rhsContracting := [0]
  lhsNonContracting := [0]
  rhsNonContracting := [1]
  lhsBatch := []
  rhsBatch := []
  wf := dot_S50000x256_S256x64_S50000x64_1_0_0_1_n_n_wf
def dot_S4096x7_S7x64_S4096x64_1_0_0_1_n_n : DotDims S4096x7 S7x64 S4096x64 where
  lhsContracting := [1]
  rhsContracting := [0]
  lhsNonContracting := [0]
  rhsNonContracting := [1]
  lhsBatch := []
  rhsBatch := []
  wf := dot_S4096x7_S7x64_S4096x64_1_0_0_1_n_n_wf
def dot_S50000x64_S64x4096_S50000x4096_1_0_0_1_n_n : DotDims S50000x64 S64x4096 S50000x4096 where
  lhsContracting := [1]
  rhsContracting := [0]
  lhsNonContracting := [0]
  rhsNonContracting := [1]
  lhsBatch := []
  rhsBatch := []
  wf := dot_S50000x64_S64x4096_S50000x4096_1_0_0_1_n_n_wf
def dot_S50000x4096_S4096x64_S50000x64_1_0_0_1_n_n : DotDims S50000x4096 S4096x64 S50000x64 where
  lhsContracting := [1]
  rhsContracting := [0]
  lhsNonContracting := [0]
  rhsNonContracting := [1]
  lhsBatch := []
  rhsBatch := []
  wf := dot_S50000x4096_S4096x64_S50000x64_1_0_0_1_n_n_wf

class Facts : Prop extends Facts₀ where

variable [Facts]
-- ==== Proof.KBody.lean ====
/-
  The kernel body of `Kernel` as a Hoare triple, for any float instance: on whole staging memrefs holding
  `x0 … x4` (the query rows' block, the query projection, its bias row, the key block, the value block) and an
  output memref at any contents, the body runs without fault, leaves the five inputs as they were and the output
  memref holding ONE pure function of the five, `outBlock`: the payload of the body's single store.
-/
import proofs.«149717_j17557826306423_2_alg».proof.Proof.Gen.Kernel.Launch
import proofs.«149717_j17557826306423_2_alg».proof.Proof.Gen.Kernel.Skeleton
import proofs.«149717_j17557826306423_2_alg».proof.Proof.Gen.Kernel.Points
import proofs.«149717_j17557826306423_2_alg».proof.Proof.Gen.Kernel.Frame
import Idealize.ShloMosaic.Lib.Pipeline.FrameBody
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses: every load and the one store take the whole buffer -/

abbrev rX : Rect S256x256 := Rect.unit (s := S256x256) ![0, 0] S256x256.size inb_S256x256_S256x256_0_0
abbrev rW : Rect S256x64 := Rect.unit (s := S256x64) ![0, 0] S256x64.size inb_S256x64_S256x64_0_0
abbrev rB : Rect S1x64 := Rect.unit (s := S1x64) ![0, 0] S1x64.size inb_S1x64_S1x64_0_0
abbrev rK : Rect S4096x64 := Rect.unit (s := S4096x64) ![0, 0] S4096x64.size inb_S4096x64_S4096x64_0_0

/-- What the output memref holds after the body, from what the five input memrefs hold: the one store's
    payload over the five whole loads. -/
def outBlock (x0 : Vec F S256x256 .f32) (x1 : Vec F S256x64 .f32) (x2 : Vec F S1x64 .f32) (x3 : Vec F S4096x64 .bf16)
    (x4 : Vec F S4096x64 .bf16) : Vec F S256x64 .f32 :=
  View.canon [⟨rW, k0_pay1 (View.ld x0 rX) (View.ld x1 rW) (View.ld x2 rB) (View.ld x3 rK) (View.ld x4 rK)⟩]

/-- The store's rectangle is the whole output block. -/
theorem cover_out (p0 : Vec F S256x64 .f32) (y : S256x64.Idx) :
    ∃ pc ∈ ([⟨rW, p0⟩] : List (View.Piece (Elt F) S256x64 .f32)), y ∈ pc.1.set :=
  View.cover_of_tiled [⟨rW, p0⟩] S256x64.size (by rfl) y

set_option maxHeartbeats 1000000 in
/-- The body's triple. -/
theorem sound_kernel (c : Dev nD) (E : Set ℕ) (i : grid0.Coords)
    (arg1 : Memref sig .tc .vmem S256x256 .f32) (harg1 : arg1.IsWhole) (arg2 : Memref sig .tc .vmem S256x64 .f32) (harg2 : arg2.IsWhole)
    (arg3 : Memref sig .tc .vmem S1x64 .f32) (harg3 : arg3.IsWhole) (arg4 : Memref sig .tc .vmem S4096x64 .bf16) (harg4 : arg4.IsWhole)
    (arg5 : Memref sig .tc .vmem S4096x64 .bf16) (harg5 : arg5.IsWhole) (arg6 : Memref sig .tc .vmem S256x64 .f32) (harg6 : arg6.IsWhole)
    (x0 : Vec F S256x256 .f32) (x1 : Vec F S256x64 .f32) (x2 : Vec F S1x64 .f32) (x3 : Vec F S4096x64 .bf16) (x4 : Vec F S4096x64 .bf16)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (outBlock x0 x1 x2 x3 x4)) -∗ K ⟨⟩))
      ⊢ wp frame (wpE (defs₀ (F := F)) Variants.none c none) E
          (cc0__attn_kernel i arg1 harg1 arg2 harg2 arg3 harg3 arg4 harg4 arg5 harg5 arg6 harg6) K := by
  simp only [cc0__attn_kernel_eq_skeleton]; unfold cc0__attn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover_out _)

end Cert.Kernel.Body

end
-- ==== Proof.KFrame.lean ====
/-
  The frame of the word-level program: it runs to the end, faults nowhere, and leaves its eight argument arrays as
  they were. Nothing is said of what the body computes: every staging buffer is handed to the body at some contents
  and taken back at some contents, which is all a run without fault needs — the body's loads and its one store are
  whole-buffer accesses, and an input array is only ever read by the pipeline.
-/
import proofs.«149717_j17557826306423_2_alg».proof.Proof.KBody
set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data: the arrays as the region finds them; what the body leaves is not named. -/
def dats (_ : Fin 1) (c : Dev nD) : Dat τ (Elt F) Unit ℕ (UR sig nD τ) ℕ cfg0 c where
  A w := V m c (Pipeline.arrRef spec0 w)
  after w t := fun _ => Classical.arbitrary _
  Φ _ := Pipeline.ΦA spec0 c
  q _ := fullShare
  owed _ := 0

/-- What the body is called with at point `t`: each current staging buffer at some contents. -/
def bodyPre (c : Dev nD) (t : Fin cfg0.N) : sProp 𝕄 :=
  iprop((dats m 0 c).Φ t.castSucc ∗ (dats m 0 c).owesAt () t.castSucc
    ∗ (∃ X, owns (c : Thread nD τ) (st0_0 t) fullShare X)
    ∗ (∃ X, owns (c : Thread nD τ) (st0_1 t) fullShare X)
    ∗ (∃ X, owns (c : Thread nD τ) (st0_2 t) fullShare X)
    ∗ (∃ X, owns (c : Thread nD τ) (st0_3 t) fullShare X)
    ∗ (∃ X, owns (c : Thread nD τ) (st0_4 t) fullShare X)
    ∗ (∃ X, owns (c : Thread nD τ) (st0_5 t) fullShare X))

/-- and what it returns: the same. -/
def bodyPost (c : Dev nD) (t : Fin cfg0.N) : sProp 𝕄 :=
  iprop((dats m 0 c).Φ t.succ ∗ (dats m 0 c).owesAt () t.succ
    ∗ (∃ X, owns (c : Thread nD τ) (st0_0 t) fullShare X)
    ∗ (∃ X, owns (c : Thread nD τ) (st0_1 t) fullShare X)
    ∗ (∃ X, owns (c : Thread nD τ) (st0_2 t) fullShare X)
    ∗ (∃ X, owns (c : Thread nD τ) (st0_3 t) fullShare X)
    ∗ (∃ X, owns (c : Thread nD τ) (st0_4 t) fullShare X)
    ∗ (∃ X, owns (c : Thread nD τ) (st0_5 t) fullShare X))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl]
  iintro ⟨HΦ, Ho, ⟨%X0, H0⟩, ⟨%X1, H1⟩, ⟨%X2, H2⟩, ⟨%X3, H3⟩, ⟨%X4, H4⟩, ⟨%X5, H5⟩⟩
  iapply (sound_kernel c Set.univ _ _ _ _ _ _ _ _ _ _ _ _ _ X0 X1 X2 X3 X4 _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexists _; iexact H0
  isplitl [H1]; · iexists _; iexact H1
  isplitl [H2]; · iexists _; iexact H2
  isplitl [H3]; · iexists _; iexact H3
  isplitl [H4]; · iexists _; iexact H4
  iexists _; iexact H5

/-- The body obligation with every window's contents left unnamed. -/
theorem body_obligation (c : Dev nD) :
    BodyObligationLoose (dats (F := F) m 0 c) (defs₀ (F := F)) Variants.none () Set.univ (fun _ => true) := fun t => by
  rw [bigSep_W0]
  try rw [bigSep_W0]
  exact sound_body m c t

/-- The same data read relationally, every window's relation saying nothing. -/
def rdat (c : Dev nD) : RDat τ (Elt F) Unit ℕ (UR sig nD τ) ℕ cfg0 c := (dats m 0 c).toRForget (fun _ => true)

set_option backward.isDefEq.respectTransparency.types false in
theorem run_main : θ_run defs (onTc (τ := τ) (main (F := F))) (s₀ m ρ) (Pipeline.RDat.FramePost (cfgs 0) (rdat m) (V m)) :=
  Pipeline.RDat.θ_run_frame cfgs (0 : Fin 1) launch0 defs₀ Variants.none (rdat m) m ρ main
    (hbody := fun c => (body_obligation m c).toRForget) (hshare := fun c => (rdat m c).share_full fun _ => rfl)
    (howed := fun _ _ => rfl) (V := V m) (hmain := hmain m Variants.none) (hA := fun _ _ => rfl) (hΦ := fun _ _ => rfl)

/-- The frame: the two staged arguments are inputs of the pipeline, never written; the other six bypass the region. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => by
    have h0 := (h c).1 0
    have h1 := (h c).1 1
    rw [(rdat m c).ArrAt_in 0 rfl] at h0
    rw [(rdat m c).ArrAt_in 1 rfl] at h1
    exact ⟨h0.trans (V_main_arg0 m c),
      ((h c).2 main_arg1 (Pipeline.mem_restRefs_of main_arg1 (by decide) (by decide))).trans (V_main_arg1 m c),
      h1.trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c)⟩) (run_main m ρ)

end Cert.Kernel.Body

end
-- ==== Proof.IBody.lean ====
/-
  The kernel body of `KernelIdeal` as a Hoare triple, for any float instance: on whole staging memrefs holding
  `x0 … x4` (the query rows' block, the query projection, its bias row, the key block, the value block) and an
  output memref at any contents, the body runs without fault, leaves the five inputs as they were and the output
  memref holding ONE pure function of the five, `outBlock`: the payload of the body's single store.
-/
import proofs.«149717_j17557826306423_2_alg».proof.Proof.Gen.KernelIdeal.Launch
import proofs.«149717_j17557826306423_2_alg».proof.Proof.Gen.KernelIdeal.Skeleton
import proofs.«149717_j17557826306423_2_alg».proof.Proof.Gen.KernelIdeal.Points
import proofs.«149717_j17557826306423_2_alg».proof.Proof.Gen.KernelIdeal.Frame
import Idealize.ShloMosaic.Lib.Pipeline.FrameBody
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses: every load and the one store take the whole buffer -/

abbrev rX : Rect S256x256 := Rect.unit (s := S256x256) ![0, 0] S256x256.size inb_S256x256_S256x256_0_0
abbrev rW : Rect S256x64 := Rect.unit (s := S256x64) ![0, 0] S256x64.size inb_S256x64_S256x64_0_0
abbrev rB : Rect S1x64 := Rect.unit (s := S1x64) ![0, 0] S1x64.size inb_S1x64_S1x64_0_0
abbrev rK : Rect S4096x64 := Rect.unit (s := S4096x64) ![0, 0] S4096x64.size inb_S4096x64_S4096x64_0_0

/-- What the output memref holds after the body, from what the five input memrefs hold: the one store's
    payload over the five whole loads. -/
def outBlock (x0 : Vec F S256x256 .f32) (x1 : Vec F S256x64 .f32) (x2 : Vec F S1x64 .f32) (x3 : Vec F S4096x64 .bf16)
    (x4 : Vec F S4096x64 .bf16) : Vec F S256x64 .f32 :=
  View.canon [⟨rW, k0_pay1 (View.ld x0 rX) (View.ld x1 rW) (View.ld x2 rB) (View.ld x3 rK) (View.ld x4 rK)⟩]

/-- The store's rectangle is the whole output block. -/
theorem cover_out (p0 : Vec F S256x64 .f32) (y : S256x64.Idx) :
    ∃ pc ∈ ([⟨rW, p0⟩] : List (View.Piece (Elt F) S256x64 .f32)), y ∈ pc.1.set :=
  View.cover_of_tiled [⟨rW, p0⟩] S256x64.size (by rfl) y

set_option maxHeartbeats 1000000 in
/-- The body's triple. -/
theorem sound_kernel (c : Dev nD) (E : Set ℕ) (i : grid0.Coords)
    (arg1 : Memref sig .tc .vmem S256x256 .f32) (harg1 : arg1.IsWhole) (arg2 : Memref sig .tc .vmem S256x64 .f32) (harg2 : arg2.IsWhole)
    (arg3 : Memref sig .tc .vmem S1x64 .f32) (harg3 : arg3.IsWhole) (arg4 : Memref sig .tc .vmem S4096x64 .bf16) (harg4 : arg4.IsWhole)
    (arg5 : Memref sig .tc .vmem S4096x64 .bf16) (harg5 : arg5.IsWhole) (arg6 : Memref sig .tc .vmem S256x64 .f32) (harg6 : arg6.IsWhole)
    (x0 : Vec F S256x256 .f32) (x1 : Vec F S256x64 .f32) (x2 : Vec F S1x64 .f32) (x3 : Vec F S4096x64 .bf16) (x4 : Vec F S4096x64 .bf16)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (outBlock x0 x1 x2 x3 x4)) -∗ K ⟨⟩))
      ⊢ wp frame (wpE (defs₀ (F := F)) Variants.none c none) E
          (cc0__attn_kernel i arg1 harg1 arg2 harg2 arg3 harg3 arg4 harg4 arg5 harg5 arg6 harg6) K := by
  simp only [cc0__attn_kernel_eq_skeleton]; unfold cc0__attn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover_out _)

end Cert.KernelIdeal.Body

end
-- ==== Proof.LibRealClosure.lean ====
/-
  Real numbers inside the extended reals: the coercion of a finite sum, closure of "is a real number" (neither −∞ nor +∞)
  under sums and sums of products, and the one law of the extended reals' division used to trade a reciprocal for a
  quotient: `a · (1 / b) = a / b` off a zero divisor (at `b = 0 = a` the left side is `0`, the right side `−∞`).
-/
import Idealize.ShloMosaic.PureOps.Ideal

noncomputable section

namespace Cert.RealClosure

open Idealize.ShloMosaic

/-- Multiplying by the reciprocal is dividing, off a zero divisor. -/
theorem mul_div_one (a b : EReal) (hb : b ≠ 0) : a * Ideal.div 1 b = Ideal.div a b := by
  unfold Ideal.div; rw [if_neg hb, if_neg hb, one_mul]

/-- The coercion of a finite real sum is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum of two reals is real. -/
theorem add_real {a b : EReal} (ha : a ≠ ⊥ ∧ a ≠ ⊤) (hb : b ≠ ⊥ ∧ b ≠ ⊤) : a + b ≠ ⊥ ∧ a + b ≠ ⊤ := by
  lift a to ℝ using ⟨ha.2, ha.1⟩
  lift b to ℝ using ⟨hb.2, hb.1⟩
  rw [← EReal.coe_add]
  exact ⟨EReal.coe_ne_bot _, EReal.coe_ne_top _⟩

/-- A finite sum of products of reals is real. -/
theorem sum_mul_real {ι : Type} (s : Finset ι) (f g : ι → EReal) (hf : ∀ i, f i ≠ ⊥ ∧ f i ≠ ⊤) (hg : ∀ i, g i ≠ ⊥ ∧ g i ≠ ⊤) :
    (∑ i ∈ s, f i * g i) ≠ ⊥ ∧ (∑ i ∈ s, f i * g i) ≠ ⊤ := by
  lift f to ι → ℝ using fun n => ⟨(hf n).2, (hf n).1⟩
  lift g to ι → ℝ using fun n => ⟨(hg n).2, (hg n).1⟩
  have : (∑ i ∈ s, (f i : EReal) * (g i : EReal)) = ((∑ i ∈ s, f i * g i : ℝ) : EReal) := by
    rw [coe_sum]; exact Finset.sum_congr rfl fun i _ => (EReal.coe_mul _ _).symm
  rw [this]
  exact ⟨EReal.coe_ne_bot _, EReal.coe_ne_top _⟩

end Cert.RealClosure

end
-- ==== Proof.Spec.lean ====
/-
  The row-wise weights of the fused attention, on the extended reals.

  For one query row let `M : ι → EReal` be its scores against the keys. Both programs form
  `e n = exp (M n − max M)`, blend `relu (M n) · c` with the softmax `e n / Σ e`, and renormalise by the row sum.
  One program multiplies by the reciprocals `1 / Σ e` and `1 / Σ num`, the other divides. On the extended reals
  `a · (1 / b) = a / b` holds exactly when `b ≠ 0` (at `b = 0 = a` the two conventions differ), so the two agree as
  soon as both row sums are non-zero — which they are when every score is a real number: then `max M` is real, every
  `e n` is a positive real, `Σ e` is a positive real, every softmax entry is positive, and `Σ num` is positive.
-/
import Idealize.ShloMosaic.PureOps.Ideal
import proofs.«149717_j17557826306423_2_alg».proof.Proof.LibRealClosure

noncomputable section

namespace Cert.AttnSpec

open Idealize.ShloMosaic Cert.RealClosure

variable {ι : Type} [Fintype ι]

/-- A row's maximum, as a fold from −∞. -/
def rowMax (M : ι → EReal) : EReal := Finset.univ.fold max ⊥ M

/-- The shifted exponentials. -/
def ex (M : ι → EReal) (n : ι) : EReal := Ideal.exp (M n - rowMax M)

/-- The blended numerators, with the softmax taken by a reciprocal, -/
def numMul (c : EReal) (M : ι → EReal) (n : ι) : EReal := max (M n) 0 * c + ex M n * Ideal.div 1 (∑ k, ex M k)

/-- and by a quotient. -/
def numDiv (c : EReal) (M : ι → EReal) (n : ι) : EReal := max (M n) 0 * c + Ideal.div (ex M n) (∑ k, ex M k)

/-- The weights, renormalised by a reciprocal, -/
def wMul (c : EReal) (M : ι → EReal) (n : ι) : EReal := numMul c M n * Ideal.div 1 (∑ k, numMul c M k)

/-- and by a quotient. -/
def wDiv (c : EReal) (M : ι → EReal) (n : ι) : EReal := Ideal.div (numDiv c M n) (∑ k, numDiv c M k)

variable [Nonempty ι]

/-- For real scores the row maximum is real. -/
theorem rowMax_real (a : ι → ℝ) : ∃ A : ℝ, rowMax (fun n => (a n : EReal)) = (A : EReal) := by
  have h1 : rowMax (fun n => (a n : EReal)) ≠ ⊤ := by
    unfold rowMax
    refine ne_of_lt ?_
    rw [Finset.fold_max_lt]
    exact ⟨bot_lt_top, fun x _ => EReal.coe_lt_top _⟩
  have h2 : rowMax (fun n => (a n : EReal)) ≠ ⊥ := by
    unfold rowMax
    obtain ⟨n0⟩ := (inferInstance : Nonempty ι)
    refine ne_of_gt (lt_of_lt_of_le (EReal.bot_lt_coe (a n0)) ?_)
    rw [Finset.le_fold_max]
    exact Or.inr ⟨n0, Finset.mem_univ _, le_rfl⟩
  exact ⟨(rowMax fun n => (a n : EReal)).toReal, (EReal.coe_toReal h1 h2).symm⟩

/-- For real scores each shifted exponential is a positive real. -/
theorem ex_real (a : ι → ℝ) : ∃ e : ι → ℝ, (∀ n, 0 < e n) ∧ ∀ n, ex (fun n => (a n : EReal)) n = (e n : EReal) := by
  obtain ⟨A, hA⟩ := rowMax_real a
  refine ⟨fun n => Real.exp (a n - A), fun n => Real.exp_pos _, fun n => ?_⟩
  unfold ex
  rw [hA, ← EReal.coe_sub]
  rfl

/-- THE LAW: for real scores and a non-negative blend factor, the reciprocal form and the quotient form of the
    weights are one function. -/
theorem wMul_eq_wDiv (c : EReal) (hc : 0 ≤ c) (M : ι → EReal) (hM : ∀ n, M n ≠ ⊥ ∧ M n ≠ ⊤) : wMul c M = wDiv c M := by
  lift M to ι → ℝ using fun n => ⟨(hM n).2, (hM n).1⟩
  obtain ⟨e, he0, he⟩ := ex_real M
  have hS : (∑ k, ex (fun n => (M n : EReal)) k) = ((∑ k, e k : ℝ) : EReal) := by
    rw [coe_sum]; exact Finset.sum_congr rfl fun k _ => he k
  have hSpos : 0 < ∑ k, e k := Finset.sum_pos (fun i _ => he0 i) Finset.univ_nonempty
  have hS0 : (∑ k, ex (fun n => (M n : EReal)) k) ≠ 0 := by
    rw [hS]; exact_mod_cast hSpos.ne'
  have hnum : numMul c (fun n => (M n : EReal)) = numDiv c (fun n => (M n : EReal)) := funext fun n => by
    unfold numMul numDiv; rw [mul_div_one _ _ hS0]
  have hsm : ∀ n, 0 < Ideal.div (ex (fun n => (M n : EReal)) n) (∑ k, ex (fun n => (M n : EReal)) k) := fun n => by
    rw [hS, he n, Ideal.div_coe hSpos.ne', ← EReal.coe_mul]
    exact_mod_cast mul_pos (he0 n) (one_div_pos.mpr hSpos)
  have hpos : ∀ n, 0 < numDiv c (fun n => (M n : EReal)) n := fun n => by
    unfold numDiv
    exact lt_of_lt_of_le (hsm n) (le_add_of_nonneg_left (EReal.mul_nonneg (le_max_right _ _) hc))
  have hT0 : (∑ k, numDiv c (fun n => (M n : EReal)) k) ≠ 0 := by
    obtain ⟨n0⟩ := (inferInstance : Nonempty ι)
    exact (lt_of_lt_of_le (hpos n0) (Finset.single_le_sum (fun i _ => (hpos i).le) (Finset.mem_univ n0))).ne'
  funext n
  unfold wMul wDiv
  rw [hnum, mul_div_one _ _ hT0]

end Cert.AttnSpec

end
-- ==== Proof.Spec2.lean ====
/-
  One row of the fused attention as a function of the arrays, on the extended reals: the query row projected and
  biased, its scores against every key, the blended and renormalised weights (Spec.lean), and the weighted sum of the
  value rows. `attnRowMul` takes the weights by reciprocals, `attnRowDiv` by quotients; for real scores they agree.
-/
import proofs.«149717_j17557826306423_2_alg».proof.Proof.Spec
import Idealize.ShloMosaic.Lib.ValueIdx

noncomputable section

namespace Cert.AttnSpec

open Idealize.ShloMosaic Idealize.ShloMosaic.ValueIdx Cert.RealClosure

/-- The projected query row: `x_r · Wq + bq`. -/
def qRow (xr : Fin 256 → EReal) (Wq : (⟨2, ![256, 64]⟩ : Shape).Idx → EReal) (bq : Fin 64 → EReal) (k : Fin 64) : EReal :=
  (∑ j : Fin 256, xr j * Wq (ix2 j k)) + bq k

/-- Its scores against the keys: `q · K_nᵀ`. -/
def scoreRow (q : Fin 64 → EReal) (K : (⟨2, ![4096, 64]⟩ : Shape).Idx → EReal) (n : Fin 4096) : EReal :=
  ∑ k : Fin 64, q k * K (ix2 n k)

/-- The weighted sum of the value rows. -/
def outRow (w : Fin 4096 → EReal) (V : (⟨2, ![4096, 64]⟩ : Shape).Idx → EReal) (d : Fin 64) : EReal :=
  ∑ n : Fin 4096, w n * V (ix2 n d)

/-- One output row, the weights taken by reciprocals, -/
def attnRowMul (c : EReal) (xr : Fin 256 → EReal) (Wq : (⟨2, ![256, 64]⟩ : Shape).Idx → EReal) (bq : Fin 64 → EReal)
    (K V : (⟨2, ![4096, 64]⟩ : Shape).Idx → EReal) (d : Fin 64) : EReal :=
  outRow (wMul c (scoreRow (qRow xr Wq bq) K)) V d

/-- and by quotients. -/
def attnRowDiv (c : EReal) (xr : Fin 256 → EReal) (Wq : (⟨2, ![256, 64]⟩ : Shape).Idx → EReal) (bq : Fin 64 → EReal)
    (K V : (⟨2, ![4096, 64]⟩ : Shape).Idx → EReal) (d : Fin 64) : EReal :=
  outRow (wDiv c (scoreRow (qRow xr Wq bq) K)) V d

/-- A key (or value) row set: `y · W + b`, one row per key. -/
def keyProj (y : (⟨2, ![4096, 7]⟩ : Shape).Idx → EReal) (W : (⟨2, ![7, 64]⟩ : Shape).Idx → EReal) (b : (⟨1, ![64]⟩ : Shape).Idx → EReal) :
    (⟨2, ![4096, 64]⟩ : Shape).Idx → EReal :=
  fun p => (∑ q : Fin 7, y (ix2 (⟨(p 0).val, (p 0).isLt⟩ : Fin 4096) q) * W (ix2 q (⟨(p 1).val, (p 1).isLt⟩ : Fin 64)))
    + b (ix1 (⟨(p 1).val, (p 1).isLt⟩ : Fin 64))

theorem keyProj_apply (y : (⟨2, ![4096, 7]⟩ : Shape).Idx → EReal) (W : (⟨2, ![7, 64]⟩ : Shape).Idx → EReal) (b : (⟨1, ![64]⟩ : Shape).Idx → EReal)
    (n : Fin 4096) (k : Fin 64) : keyProj y W b (ix2 n k) = (∑ q : Fin 7, y (ix2 n q) * W (ix2 q k)) + b (ix1 k) := rfl

/-- Real inputs give real keys. -/
theorem keyProj_real (y : (⟨2, ![4096, 7]⟩ : Shape).Idx → EReal) (W : (⟨2, ![7, 64]⟩ : Shape).Idx → EReal) (b : (⟨1, ![64]⟩ : Shape).Idx → EReal)
    (hy : ∀ i, y i ≠ ⊥ ∧ y i ≠ ⊤) (hW : ∀ i, W i ≠ ⊥ ∧ W i ≠ ⊤) (hb : ∀ i, b i ≠ ⊥ ∧ b i ≠ ⊤) (p : (⟨2, ![4096, 64]⟩ : Shape).Idx) :
    keyProj y W b p ≠ ⊥ ∧ keyProj y W b p ≠ ⊤ :=
  add_real (sum_mul_real _ _ _ (fun q => hy _) fun q => hW _) (hb _)

/-- For real query rows, projections, biases and keys the scores are real, so the two forms of a row agree. -/
theorem attnRowMul_eq_attnRowDiv (c : EReal) (hc : 0 ≤ c) (xr : Fin 256 → EReal) (Wq : (⟨2, ![256, 64]⟩ : Shape).Idx → EReal)
    (bq : Fin 64 → EReal) (K V : (⟨2, ![4096, 64]⟩ : Shape).Idx → EReal)
    (hx : ∀ j, xr j ≠ ⊥ ∧ xr j ≠ ⊤) (hW : ∀ i, Wq i ≠ ⊥ ∧ Wq i ≠ ⊤) (hb : ∀ k, bq k ≠ ⊥ ∧ bq k ≠ ⊤) (hK : ∀ i, K i ≠ ⊥ ∧ K i ≠ ⊤) :
    attnRowMul c xr Wq bq K V = attnRowDiv c xr Wq bq K V := by
  funext d
  unfold attnRowMul attnRowDiv
  rw [wMul_eq_wDiv c hc]
  intro n
  unfold scoreRow
  exact sum_mul_real _ _ _ (fun k => add_real (sum_mul_real _ _ _ hx fun j => hW _) (hb k)) fun k => hK _

end Cert.AttnSpec

end
-- ==== Proof.LibKeepdims.lean ====
/-
  Two layout operations of a keep-dimensions reduction read at an index of a rank-2 array: a column `[a, 1]` broadcast
  along its unit axis to `[a, b]`, and a vector `[a]` cast to the column `[a, 1]`. (The row form `[1, b] → [a, b]` and
  the leading-unit-axis casts are the library's, Lib/ValueLayout.lean.)
-/
import Idealize.ShloMosaic.Lib.Pipeline.Value
import Idealize.ShloMosaic.Lib.ValueIdx

namespace Idealize.ShloMosaic.ValueIdx

open Idealize.ShloMosaic

variable {α : Type}

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` cast to the column `[a, 1]` reads, at `(p, u)`, the vector's entry `p`. -/
theorem shapeCast_a_a1_apply {a : ℕ} (v : (⟨1, ![a]⟩ : Shape).Idx → α) (h : (⟨1, ![a]⟩ : Shape).ShapeCasts ⟨2, ![a, 1]⟩)
    (p : Fin a) (u : Fin 1) : shapeCast ⟨2, ![a, 1]⟩ v h (ix2 p u) = v (ix1 p) :=
  shapeCast_apply v h _ _ (by
    rw [Shape.rowMajor_val_one, Shape.rowMajor_val_two]
    show p.val = p.val * 1 + u.val
    have := u.isLt
    omega)

/-- A column `[a, 1]` cast to the vector `[a]` reads, at `p`, the column's entry of row `p`. -/
theorem shapeCast_a1_a_apply {a : ℕ} (v : (⟨2, ![a, 1]⟩ : Shape).Idx → α) (h : (⟨2, ![a, 1]⟩ : Shape).ShapeCasts ⟨1, ![a]⟩)
    (p : Fin a) : shapeCast ⟨1, ![a]⟩ v h (ix1 p) = v (ix2 p (0 : Fin 1)) :=
  shapeCast_apply v h _ _ (by
    rw [Shape.rowMajor_val_two, Shape.rowMajor_val_one]
    show p.val * 1 + 0 = p.val
    omega)

end Idealize.ShloMosaic.ValueIdx
-- ==== Proof.IPay.lean ====
/-
  The body's payload read at an entry, at the ideal instance. The payload is cut into its stages — the projected query
  block, the scores, the row maxima, the shifted exponentials, the row sums and their reciprocals, the blended numerators,
  the weights, the weighted sum of value rows — and each stage is read at an index; composed, entry `(r, d)` of the block
  the body stores is `attnRowMul` (Spec2.lean) of row `r` of the query block and of the four resident operands.
  Nothing here mentions memory: these are facts about pure functions of vectors.
-/
import proofs.«149717_j17557826306423_2_alg».proof.Proof.Gen.KernelIdeal.Skeleton
import proofs.«149717_j17557826306423_2_alg».proof.Proof.Spec2
import proofs.«149717_j17557826306423_2_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Cert.AttnSpec
open Idealize.ShloMosaic Idealize.ShloMosaic.ValueIdx

/-! ## The constants -/

/-- The blend factor: the f32 nearest one tenth. -/
abbrev cTenth : EReal := Ideal.ofBits .f32 0x3DCCCCCD#32

theorem ofBits_one : Ideal.ofBits .f32 0x3F800000#32 = 1 := by
  simp [Ideal.ofBits, Ideal.ieee]
  norm_num
  rw [← EReal.coe_mul]
  norm_num
theorem ofBits_neg_inf : Ideal.ofBits .f32 0xFF800000#32 = ⊥ := by
  simp [Ideal.ofBits, Ideal.ieee]
theorem cTenth_nonneg : 0 ≤ cTenth := by
  simp [cTenth, Ideal.ofBits, Ideal.ieee]
  positivity

/-! ## The three matrix products at an entry -/

theorem lhs1_0 (i : S256x64.Idx) (q : dot_S256x256_S256x64_S256x64_1_0_0_1_n_n.contr.Idx) : (dot_S256x256_S256x64_S256x64_1_0_0_1_n_n.lhsIdx i q 0).val = (i 0).val := by
  unfold DotDims.lhsIdx
  rw [dif_neg (show ¬(0 : Fin S256x256.rank) ∈ dot_S256x256_S256x64_S256x64_1_0_0_1_n_n.lhsBatch by decide), dif_pos (show (0 : Fin S256x256.rank) ∈ dot_S256x256_S256x64_S256x64_1_0_0_1_n_n.lhsNonContracting by decide)]
  rfl
theorem lhs1_1 (i : S256x64.Idx) (q : dot_S256x256_S256x64_S256x64_1_0_0_1_n_n.contr.Idx) : (dot_S256x256_S256x64_S256x64_1_0_0_1_n_n.lhsIdx i q 1).val = (q ⟨0, by decide⟩).val :=
  dot_S256x256_S256x64_S256x64_1_0_0_1_n_n.lhsIdx_val_of_single rfl i q
theorem rhs1_c (i : S256x64.Idx) (q : dot_S256x256_S256x64_S256x64_1_0_0_1_n_n.contr.Idx) : (dot_S256x256_S256x64_S256x64_1_0_0_1_n_n.rhsIdx i q 0).val = (q ⟨0, by decide⟩).val :=
  dot_S256x256_S256x64_S256x64_1_0_0_1_n_n.rhsIdx_val_of_single rfl i q
theorem rhs1_n (i : S256x64.Idx) (q : dot_S256x256_S256x64_S256x64_1_0_0_1_n_n.contr.Idx) : (dot_S256x256_S256x64_S256x64_1_0_0_1_n_n.rhsIdx i q 1).val = (i 1).val := by
  unfold DotDims.rhsIdx
  rw [dif_neg (show ¬(1 : Fin S256x64.rank) ∈ dot_S256x256_S256x64_S256x64_1_0_0_1_n_n.rhsBatch by decide), dif_pos (show (1 : Fin S256x64.rank) ∈ dot_S256x256_S256x64_S256x64_1_0_0_1_n_n.rhsNonContracting by decide)]
  rfl

/-- The query projection at an entry: row `r` of the left operand against column `c` of the right. -/
theorem mm1_apply (L : FVec Ideal S256x256 .bf16) (R : FVec Ideal S256x64 .bf16) (r : Fin 256) (c : Fin 64) :
    matmul dot_S256x256_S256x64_S256x64_1_0_0_1_n_n none L R (constant S256x64 .f32 0x00000000#32) (ix2 r c) = ∑ k : Fin 256, L (ix2 r k) * R (ix2 k c) := by
  simp only [matmul]
  rw [Ideal.matmul_constant_zero_apply, ← Equiv.sum_comp (ValueIdx.contrEquiv1 dot_S256x256_S256x64_S256x64_1_0_0_1_n_n 256 rfl rfl).symm]
  refine Finset.sum_congr rfl fun k _ => ?_
  have hk := ValueIdx.contrEquiv1_symm_val dot_S256x256_S256x64_S256x64_1_0_0_1_n_n 256 rfl rfl k
  have el : dot_S256x256_S256x64_S256x64_1_0_0_1_n_n.lhsIdx (ix2 r c) ((ValueIdx.contrEquiv1 dot_S256x256_S256x64_S256x64_1_0_0_1_n_n 256 rfl rfl).symm k) = ix2 r k := funext fun a => Fin.ext (by
    match a with
    | ⟨0, _⟩ => exact lhs1_0 _ _
    | ⟨1, _⟩ => exact (lhs1_1 _ _).trans hk)
  have er : dot_S256x256_S256x64_S256x64_1_0_0_1_n_n.rhsIdx (ix2 r c) ((ValueIdx.contrEquiv1 dot_S256x256_S256x64_S256x64_1_0_0_1_n_n 256 rfl rfl).symm k) = ix2 k c := funext fun a => Fin.ext (by
    match a with
    | ⟨0, _⟩ => exact (rhs1_c _ _).trans hk
    | ⟨1, _⟩ => exact rhs1_n _ _)
  rw [el, er]

theorem lhs2_0 (i : S256x4096.Idx) (q : dot_S256x64_S4096x64_S256x4096_1_1_0_0_n_n.contr.Idx) : (dot_S256x64_S4096x64_S256x4096_1_1_0_0_n_n.lhsIdx i q 0).val = (i 0).val := by
  unfold DotDims.lhsIdx
  rw [dif_neg (show ¬(0 : Fin S256x64.rank) ∈ dot_S256x64_S4096x64_S256x4096_1_1_0_0_n_n.lhsBatch by decide), dif_pos (show (0 : Fin S256x64.rank) ∈ dot_S256x64_S4096x64_S256x4096_1_1_0_0_n_n.lhsNonContracting by decide)]
  rfl
theorem lhs2_1 (i : S256x4096.Idx) (q : dot_S256x64_S4096x64_S256x4096_1_1_0_0_n_n.contr.Idx) : (dot_S256x64_S4096x64_S256x4096_1_1_0_0_n_n.lhsIdx i q 1).val = (q ⟨0, by decide⟩).val :=
  dot_S256x64_S4096x64_S256x4096_1_1_0_0_n_n.lhsIdx_val_of_single rfl i q
theorem rhs2_c (i : S256x4096.Idx) (q : dot_S256x64_S4096x64_S256x4096_1_1_0_0_n_n.contr.Idx) : (dot_S256x64_S4096x64_S256x4096_1_1_0_0_n_n.rhsIdx i q 1).val = (q ⟨0, by decide⟩).val :=
  dot_S256x64_S4096x64_S256x4096_1_1_0_0_n_n.rhsIdx_val_of_single rfl i q
theorem rhs2_n (i : S256x4096.Idx) (q : dot_S256x64_S4096x64_S256x4096_1_1_0_0_n_n.contr.Idx) : (dot_S256x64_S4096x64_S256x4096_1_1_0_0_n_n.rhsIdx i q 0).val = (i 1).val := by
  unfold DotDims.rhsIdx
  rw [dif_neg (show ¬(0 : Fin S4096x64.rank) ∈ dot_S256x64_S4096x64_S256x4096_1_1_0_0_n_n.rhsBatch by decide), dif_pos (show (0 : Fin S4096x64.rank) ∈ dot_S256x64_S4096x64_S256x4096_1_1_0_0_n_n.rhsNonContracting by decide)]
  rfl

/-- The scores at an entry: row `r` of the left operand against ROW `c` of the right (both contracted on their second axis). -/
theorem mm2_apply (L : FVec Ideal S256x64 .bf16) (R : FVec Ideal S4096x64 .bf16) (r : Fin 256) (c : Fin 4096) :
    matmul dot_S256x64_S4096x64_S256x4096_1_1_0_0_n_n none L R (constant S256x4096 .f32 0x00000000#32) (ix2 r c) = ∑ k : Fin 64, L (ix2 r k) * R (ix2 c k) := by
  simp only [matmul]
  rw [Ideal.matmul_constant_zero_apply, ← Equiv.sum_comp (ValueIdx.contrEquiv1 dot_S256x64_S4096x64_S256x4096_1_1_0_0_n_n 64 rfl rfl).symm]
  refine Finset.sum_congr rfl fun k _ => ?_
  have hk := ValueIdx.contrEquiv1_symm_val dot_S256x64_S4096x64_S256x4096_1_1_0_0_n_n 64 rfl rfl k
  have el : dot_S256x64_S4096x64_S256x4096_1_1_0_0_n_n.lhsIdx (ix2 r c) ((ValueIdx.contrEquiv1 dot_S256x64_S4096x64_S256x4096_1_1_0_0_n_n 64 rfl rfl).symm k) = ix2 r k := funext fun a => Fin.ext (by
    match a with
    | ⟨0, _⟩ => exact lhs2_0 _ _
    | ⟨1, _⟩ => exact (lhs2_1 _ _).trans hk)
  have er : dot_S256x64_S4096x64_S256x4096_1_1_0_0_n_n.rhsIdx (ix2 r c) ((ValueIdx.contrEquiv1 dot_S256x64_S4096x64_S256x4096_1_1_0_0_n_n 64 rfl rfl).symm k) = ix2 c k := funext fun a => Fin.ext (by
    match a with
    | ⟨1, _⟩ => exact (rhs2_c _ _).trans hk
    | ⟨0, _⟩ => exact rhs2_n _ _)
  rw [el, er]

theorem lhs3_0 (i : S256x64.Idx) (q : dot_S256x4096_S4096x64_S256x64_1_0_0_1_n_n.contr.Idx) : (dot_S256x4096_S4096x64_S256x64_1_0_0_1_n_n.lhsIdx i q 0).val = (i 0).val := by
  unfold DotDims.lhsIdx
  rw [dif_neg (show ¬(0 : Fin S256x4096.rank) ∈ dot_S256x4096_S4096x64_S256x64_1_0_0_1_n_n.lhsBatch by decide), dif_pos (show (0 : Fin S256x4096.rank) ∈ dot_S256x4096_S4096x64_S256x64_1_0_0_1_n_n.lhsNonContracting by decide)]
  rfl
theorem lhs3_1 (i : S256x64.Idx) (q : dot_S256x4096_S4096x64_S256x64_1_0_0_1_n_n.contr.Idx) : (dot_S256x4096_S4096x64_S256x64_1_0_0_1_n_n.lhsIdx i q 1).val = (q ⟨0, by decide⟩).val :=
  dot_S256x4096_S4096x64_S256x64_1_0_0_1_n_n.lhsIdx_val_of_single rfl i q
theorem rhs3_c (i : S256x64.Idx) (q : dot_S256x4096_S4096x64_S256x64_1_0_0_1_n_n.contr.Idx) : (dot_S256x4096_S4096x64_S256x64_1_0_0_1_n_n.rhsIdx i q 0).val = (q ⟨0, by decide⟩).val :=
  dot_S256x4096_S4096x64_S256x64_1_0_0_1_n_n.rhsIdx_val_of_single rfl i q
theorem rhs3_n (i : S256x64.Idx) (q : dot_S256x4096_S4096x64_S256x64_1_0_0_1_n_n.contr.Idx) : (dot_S256x4096_S4096x64_S256x64_1_0_0_1_n_n.rhsIdx i q 1).val = (i 1).val := by
  unfold DotDims.rhsIdx
  rw [dif_neg (show ¬(1 : Fin S4096x64.rank) ∈ dot_S256x4096_S4096x64_S256x64_1_0_0_1_n_n.rhsBatch by decide), dif_pos (show (1 : Fin S4096x64.rank) ∈ dot_S256x4096_S4096x64_S256x64_1_0_0_1_n_n.rhsNonContracting by decide)]
  rfl

/-- The weighted sum of value rows at an entry. -/
theorem mm3_apply (L : FVec Ideal S256x4096 .bf16) (R : FVec Ideal S4096x64 .bf16) (r : Fin 256) (c : Fin 64) :
    matmul dot_S256x4096_S4096x64_S256x64_1_0_0_1_n_n none L R (constant S256x64 .f32 0x00000000#32) (ix2 r c) = ∑ k : Fin 4096, L (ix2 r k) * R (ix2 k c) := by
  simp only [matmul]
  rw [Ideal.matmul_constant_zero_apply, ← Equiv.sum_comp (ValueIdx.contrEquiv1 dot_S256x4096_S4096x64_S256x64_1_0_0_1_n_n 4096 rfl rfl).symm]
  refine Finset.sum_congr rfl fun k _ => ?_
  have hk := ValueIdx.contrEquiv1_symm_val dot_S256x4096_S4096x64_S256x64_1_0_0_1_n_n 4096 rfl rfl k
  have el : dot_S256x4096_S4096x64_S256x64_1_0_0_1_n_n.lhsIdx (ix2 r c) ((ValueIdx.contrEquiv1 dot_S256x4096_S4096x64_S256x64_1_0_0_1_n_n 4096 rfl rfl).symm k) = ix2 r k := funext fun a => Fin.ext (by
    match a with
    | ⟨0, _⟩ => exact lhs3_0 _ _
    | ⟨1, _⟩ => exact (lhs3_1 _ _).trans hk)
  have er : dot_S256x4096_S4096x64_S256x64_1_0_0_1_n_n.rhsIdx (ix2 r c) ((ValueIdx.contrEquiv1 dot_S256x4096_S4096x64_S256x64_1_0_0_1_n_n 4096 rfl rfl).symm k) = ix2 k c := funext fun a => Fin.ext (by
    match a with
    | ⟨0, _⟩ => exact (rhs3_c _ _).trans hk
    | ⟨1, _⟩ => exact rhs3_n _ _)
  rw [el, er]

/-! ## The stages -/

/-- The projected query block. -/
def xq (X0 : FVec Ideal S256x256 .f32) (X1 : FVec Ideal S256x64 .f32) (X2 : FVec Ideal S1x64 .f32) : FVec Ideal S256x64 .f32 :=
  addf (matmul dot_S256x256_S256x64_S256x64_1_0_0_1_n_n none (truncf .bf16 X0 bitsLt_bf16_f32) (truncf .bf16 X1 bitsLt_bf16_f32) (constant S256x64 .f32 0x00000000#32))
    (broadcastTo S256x64 (shapeCast S1x64 X2 shapeCasts_S1x64_S1x64) broadcasts_S1x64_S256x64)

/-- The scores of the block's rows against the keys. -/
def sc (Q : FVec Ideal S256x64 .f32) (X3 : FVec Ideal S4096x64 .bf16) : FVec Ideal S256x4096 .f32 :=
  matmul dot_S256x64_S4096x64_S256x4096_1_1_0_0_n_n none (truncf .bf16 Q bitsLt_bf16_f32) (shapeCast S4096x64 X3 shapeCasts_S4096x64_S4096x64) (constant S256x4096 .f32 0x00000000#32)

/-- The row maxima. -/
def rmax (M : FVec Ideal S256x4096 .f32) : FVec Ideal S256 .f32 :=
  multiReduction .maximumf [1] S256 M 0xFF800000#32 reduces_S256x4096_S256 (.inl rfl) rfl

/-- A per-row value spread along its row. -/
def col (v : FVec Ideal S256 .f32) : FVec Ideal S256x4096 .f32 :=
  broadcastTo S256x4096 (shapeCast S256x1 v shapeCasts_S256_S256x1) broadcasts_S256x1_S256x4096

/-- The shifted exponentials. -/
def exps (M : FVec Ideal S256x4096 .f32) : FVec Ideal S256x4096 .f32 := exp (subf M (col (rmax M)))

/-- The row sums. -/
def rsum (E : FVec Ideal S256x4096 .f32) : FVec Ideal S256 .f32 :=
  multiReduction .add [1] S256 E 0x00000000#32 reduces_S256x4096_S256 (.inl rfl) rfl

/-- The reciprocal of a per-row value, spread along its row. -/
def recipCol (v : FVec Ideal S256 .f32) : FVec Ideal S256x4096 .f32 :=
  broadcastTo S256x4096 (divf (broadcast S256x1 (Scalar.ofBits .f32 0x3F800000#32)) (shapeCast S256x1 v shapeCasts_S256_S256x1)) broadcasts_S256x1_S256x4096

/-- The blended numerators. -/
def nums (M : FVec Ideal S256x4096 .f32) : FVec Ideal S256x4096 .f32 :=
  addf (mulf (maximumf M (broadcast S256x4096 (Scalar.ofBits .f32 0x00000000#32))) (broadcast S256x4096 (Scalar.ofBits .f32 0x3DCCCCCD#32)))
    (mulf (exps M) (recipCol (rsum (exps M))))

/-- The weights. -/
def wts (M : FVec Ideal S256x4096 .f32) : FVec Ideal S256x4096 .f32 := mulf (nums M) (recipCol (rsum (nums M)))

/-- The weighted sum of value rows. -/
def outp (W : FVec Ideal S256x4096 .f32) (X4 : FVec Ideal S4096x64 .bf16) : FVec Ideal S256x64 .f32 :=
  matmul dot_S256x4096_S4096x64_S256x64_1_0_0_1_n_n none (truncf .bf16 W bitsLt_bf16_f32) (shapeCast S4096x64 X4 shapeCasts_S4096x64_S4096x64) (constant S256x64 .f32 0x00000000#32)

/-- The payload is the composition of the stages. -/
theorem pay_eq (X0 : FVec Ideal S256x256 .f32) (X1 : FVec Ideal S256x64 .f32) (X2 : FVec Ideal S1x64 .f32) (X3 : FVec Ideal S4096x64 .bf16)
    (X4 : FVec Ideal S4096x64 .bf16) : k0_pay1 (F := Ideal) X0 X1 X2 X3 X4 = outp (wts (sc (xq X0 X1 X2) X3)) X4 := rfl

/-! ## Each stage at an entry -/

theorem xq_apply (X0 : FVec Ideal S256x256 .f32) (X1 : FVec Ideal S256x64 .f32) (X2 : FVec Ideal S1x64 .f32) (r : Fin 256) (k : Fin 64) :
    xq X0 X1 X2 (ix2 r k) = qRow (fun j => X0 (ix2 r j)) X1 (fun k => X2 (ix2 (0 : Fin 1) k)) k := by
  unfold xq qRow
  rw [addf_apply, mm1_apply, broadcastTo_1b_ab_apply, shapeCast_self]
  rfl

theorem sc_apply (Q : FVec Ideal S256x64 .f32) (X3 : FVec Ideal S4096x64 .bf16) (r : Fin 256) (n : Fin 4096) :
    sc Q X3 (ix2 r n) = scoreRow (fun k => Q (ix2 r k)) X3 n := by
  unfold sc scoreRow
  rw [mm2_apply, shapeCast_self]
  rfl

theorem lift_ix (r : Fin 256) (k : Fin 4096) :
    (reduces_S256x4096_S256 : S256x4096.Reduces [1] S256).lift (ix1 r) k = ix2 r k :=
  funext fun a => Fin.ext (by match a with | ⟨0, _⟩ => rfl | ⟨1, _⟩ => rfl)

theorem rmax_apply (M : FVec Ideal S256x4096 .f32) (r : Fin 256) : rmax M (ix1 r) = rowMax (fun n => M (ix2 r n)) := by
  unfold rmax rowMax
  refine (Ideal.multiReduction_maximumf_single M 0xFF800000#32 reduces_S256x4096_S256 (.inl rfl) rfl (ix1 r)).trans ?_
  show Finset.fold max (Ideal.ofBits .f32 0xFF800000#32) _ _ = _
  rw [ofBits_neg_inf]
  exact congrArg (fun f => Finset.fold max ⊥ f Finset.univ) (funext fun k => congrArg M (lift_ix r k))

theorem rsum_apply (E : FVec Ideal S256x4096 .f32) (r : Fin 256) : rsum E (ix1 r) = ∑ k : Fin 4096, E (ix2 r k) := by
  unfold rsum
  refine (Ideal.multiReduction_add_single E 0x00000000#32 reduces_S256x4096_S256 (.inl rfl) rfl (ix1 r)).trans ?_
  exact Finset.sum_congr rfl fun k _ => congrArg E (lift_ix r k)

theorem col_apply (v : FVec Ideal S256 .f32) (r : Fin 256) (n : Fin 4096) : col v (ix2 r n) = v (ix1 r) := by
  unfold col
  rw [broadcastTo_a1_ab_apply, shapeCast_a_a1_apply]

theorem recipCol_apply (v : FVec Ideal S256 .f32) (r : Fin 256) (n : Fin 4096) : recipCol v (ix2 r n) = Ideal.div 1 (v (ix1 r)) := by
  unfold recipCol
  rw [broadcastTo_a1_ab_apply, divf_apply, shapeCast_a_a1_apply]
  show Ideal.div (Ideal.ofBits .f32 0x3F800000#32) _ = _
  rw [ofBits_one]

theorem exps_apply (M : FVec Ideal S256x4096 .f32) (r : Fin 256) (n : Fin 4096) :
    exps M (ix2 r n) = ex (fun n => M (ix2 r n)) n := by
  unfold exps ex
  show Ideal.exp (M (ix2 r n) - col (rmax M) (ix2 r n)) = _
  rw [col_apply, rmax_apply]

theorem nums_apply (M : FVec Ideal S256x4096 .f32) (r : Fin 256) (n : Fin 4096) :
    nums M (ix2 r n) = numMul cTenth (fun n => M (ix2 r n)) n := by
  unfold nums numMul
  rw [addf_apply, mulf_apply, mulf_apply, maximumf_apply, recipCol_apply, rsum_apply, exps_apply]
  show max (M (ix2 r n)) (Ideal.ofBits .f32 0x00000000#32) * cTenth + _ = _
  rw [Ideal.ofBits_zero_f32]
  exact congrArg (fun s => max (M (ix2 r n)) 0 * cTenth + ex (fun n => M (ix2 r n)) n * Ideal.div 1 s)
    (Finset.sum_congr rfl fun k _ => exps_apply M r k)

theorem wts_apply (M : FVec Ideal S256x4096 .f32) (r : Fin 256) (n : Fin 4096) :
    wts M (ix2 r n) = wMul cTenth (fun n => M (ix2 r n)) n := by
  unfold wts wMul
  rw [mulf_apply, recipCol_apply, rsum_apply, nums_apply]
  exact congrArg (fun s => numMul cTenth (fun n => M (ix2 r n)) n * Ideal.div 1 s)
    (Finset.sum_congr rfl fun k _ => nums_apply M r k)

theorem outp_apply (W : FVec Ideal S256x4096 .f32) (X4 : FVec Ideal S4096x64 .bf16) (r : Fin 256) (d : Fin 64) :
    outp W X4 (ix2 r d) = outRow (fun n => W (ix2 r n)) X4 d := by
  unfold outp outRow
  rw [mm3_apply, shapeCast_self]
  rfl

/-- THE PAYLOAD AT AN ENTRY: row `r` of the stored block is the attention row of row `r` of the query block. -/
theorem pay_apply (X0 : FVec Ideal S256x256 .f32) (X1 : FVec Ideal S256x64 .f32) (X2 : FVec Ideal S1x64 .f32) (X3 : FVec Ideal S4096x64 .bf16)
    (X4 : FVec Ideal S4096x64 .bf16) (r : Fin 256) (d : Fin 64) :
    k0_pay1 (F := Ideal) X0 X1 X2 X3 X4 (ix2 r d)
      = attnRowMul cTenth (fun j => X0 (ix2 r j)) X1 (fun k => X2 (ix2 (0 : Fin 1) k)) X3 X4 d := by
  rw [pay_eq, outp_apply]
  unfold attnRowMul
  refine congrArg (fun w => outRow w X4 d) (funext fun n => ?_)
  rw [wts_apply]
  refine congrArg (fun M => wMul cTenth M n) (funext fun n' => ?_)
  rw [sc_apply]
  exact congrArg (fun q => scoreRow q X3 n') (funext fun k => xq_apply X0 X1 X2 r k)

end Cert.KernelIdeal.Pay

end
-- ==== Proof.IFrame.lean ====
/-
  The idealized kernel's run, and what its result array ends holding.

  The grid has 196 points; point `t` stages rows `256·t … 256·t + 255` of the query array and writes back the same
  rows of the result. 50000 = 195·256 + 80, so the last block overhangs both arrays by 176 rows: its fetch fills only
  the first 80 rows of the staging buffer (the rest holds words nothing names) and its write-back writes only the first
  80 rows of the result block. The body computes all 256 rows; what makes the unnamed rows harmless is that the body
  is ROW-WISE: row `r` of the block it stores depends on row `r` of the query block alone (IPay.lean), so the rows that
  are written back do not depend on the filler. The other four operands are whole arrays, staged once.

  So the result array ends as ONE function of the arrays the region finds: entry `(i, d)` is the attention row of
  row `i` of the queries (`result`), by the cover of the rows by the blocks' parts inside the array.
-/
import proofs.«149717_j17557826306423_2_alg».proof.Proof.IBody
import proofs.«149717_j17557826306423_2_alg».proof.Proof.IPay
import Idealize.ShloMosaic.Lib.Pipeline.Value
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)
open Cert.KernelIdeal.Pay Cert.AttnSpec Idealize.ShloMosaic.ValueIdx

local notation "𝕄" => MT nD τ sig Unit (Elt Ideal) ℕ (UR sig nD τ) ℕ

variable (m : (ℓ : Loc nD τ sig) → Buf (Elt Ideal) ℓ) (ρ : Dev nD → PrngReg)

theorem hz : (![0, 0] : Fin 2 → Nat) = fun _ => 0 := funext fun a => by fin_cases a <;> rfl

/-- The one whole-buffer store over the five whole-buffer loads is the payload of the loaded contents. -/
theorem outBlock_eq (x0 : Vec Ideal S256x256 .f32) (x1 : Vec Ideal S256x64 .f32) (x2 : Vec Ideal S1x64 .f32)
    (x3 : Vec Ideal S4096x64 .bf16) (x4 : Vec Ideal S4096x64 .bf16) :
    outBlock (F := Ideal) x0 x1 x2 x3 x4 = k0_pay1 (F := Ideal) x0 x1 x2 x3 x4 := by
  unfold outBlock
  rw [View.canon_unit_zero hz]
  simp only [View.ld_unit_zero (S := S256x256) hz, View.ld_unit_zero (S := S256x64) hz, View.ld_unit_zero (S := S1x64) hz,
    View.ld_unit_zero (S := S4096x64) hz]

/-! ## The schedule, decided over the grid -/

/-- Point `t`'s query block and result block both start at row `256·t` and column 0 and have the same number of rows
    inside their arrays — 256, or 80 at the last point —, and all their columns; the four resident operands' one block
    is the whole array. -/
theorem grid_facts : ∀ t : Fin cfg0.N,
    win0_0.index t (0 : Fin 2) = t.val ∧ win0_0.index t (1 : Fin 2) = 0
    ∧ win0_5.index t (0 : Fin 2) = t.val ∧ win0_5.index t (1 : Fin 2) = 0
    ∧ win0_0.xsize (grid0.coords t) (0 : Fin 2) = win0_5.xsize (grid0.coords t) (0 : Fin 2)
    ∧ win0_0.xsize (grid0.coords t) (1 : Fin 2) = 256
    ∧ win0_5.xsize (grid0.coords t) (1 : Fin 2) = 64
    ∧ t.val * 256 + win0_5.xsize (grid0.coords t) (0 : Fin 2) = min (t.val * 256 + 256) 50000
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-! ## A filled query block read on a row inside the array -/

/-- Where the fetch landed, the staging buffer holds the fetched block, whatever filled the rest. -/
theorem fill_row (t : Fin cfg0.N) (d : S256x256.Idx → Elt Ideal .f32) (g : (win0_0.xblock (grid0.coords t)).Idx → Elt Ideal .f32)
    (r : Fin 256) (k : Fin 256) (hlt : ∀ a, ((ix2 r k : S256x256.Idx) a).val < win0_0.xsize (grid0.coords t) a) :
    win0_0.fill (grid0.coords t) d g (ix2 r k) = g (fun a => ⟨((ix2 r k : S256x256.Idx) a).val, hlt a⟩) := by
  have e : (ix2 r k : S256x256.Idx) = win0_0.xinj (grid0.coords t) (fun a => ⟨((ix2 r k : S256x256.Idx) a).val, hlt a⟩) :=
    funext fun a => Fin.ext rfl
  exact (congrArg (win0_0.fill (grid0.coords t) d g) e).trans (win0_0.fill_xinj _ d g _)

/-- An index of the result block's part inside the array, by its coordinates. -/
theorem xinj5_eq (t : Fin cfg0.N) (j : (win0_5.xblock (grid0.coords t)).Idx) (hr : (j 0).val < 256) (hd : (j 1).val < 64) :
    win0_5.xinj (grid0.coords t) j = (ix2 (⟨(j 0).val, hr⟩ : Fin 256) (⟨(j 1).val, hd⟩ : Fin 64) : S256x64.Idx) :=
  funext fun a => Fin.ext (by match a with | ⟨0, _⟩ => rfl | ⟨1, _⟩ => rfl)

/-- ROW-WISE: the rows of the stored block that are written back do not depend on what fills the staging buffer past
    the array's end. -/
theorem cut_out_indep (t : Fin cfg0.N) (d d' : S256x256.Idx → Elt Ideal .f32) (g : (win0_0.xblock (grid0.coords t)).Idx → Elt Ideal .f32)
    (x1 : Vec Ideal S256x64 .f32) (x2 : Vec Ideal S1x64 .f32) (x3 : Vec Ideal S4096x64 .bf16) (x4 : Vec Ideal S4096x64 .bf16) :
    win0_5.cut (grid0.coords t) (outBlock (F := Ideal) (win0_0.fill (grid0.coords t) d g) x1 x2 x3 x4)
      = win0_5.cut (grid0.coords t) (outBlock (F := Ideal) (win0_0.fill (grid0.coords t) d' g) x1 x2 x3 x4) := by
  obtain ⟨-, -, -, -, xs0, xs01, xs51, xs50, -⟩ := grid_facts t
  funext j
  have hj0 : (j 0).val < win0_5.xsize (grid0.coords t) (0 : Fin 2) := (j 0).isLt
  have hj1 : (j 1).val < win0_5.xsize (grid0.coords t) (1 : Fin 2) := (j 1).isLt
  have hr : (j 0).val < 256 := by omega
  have hd : (j 1).val < 64 := by omega
  show outBlock _ x1 x2 x3 x4 (win0_5.xinj _ j) = outBlock _ x1 x2 x3 x4 (win0_5.xinj _ j)
  rw [xinj5_eq t j hr hd, outBlock_eq, outBlock_eq, pay_apply, pay_apply]
  have hlt : ∀ (k : Fin 256) a, ((ix2 (⟨(j 0).val, hr⟩ : Fin 256) k : S256x256.Idx) a).val < win0_0.xsize (grid0.coords t) a := fun k a => by
    match a with
    | ⟨0, _⟩ => show (j 0).val < win0_0.xsize (grid0.coords t) (0 : Fin 2); omega
    | ⟨1, _⟩ => show k.val < win0_0.xsize (grid0.coords t) (1 : Fin 2); have := k.isLt; omega
  exact congrArg (fun xr => attnRowMul cTenth xr x1 (fun k => x2 (ix2 (0 : Fin 1) k)) x3 x4 ⟨(j 1).val, hd⟩)
    (funext fun k => (fill_row t d g _ k (hlt k)).trans (fill_row t d' g _ k (hlt k)).symm)

/-! ## The proof data -/

/-- The query block at point `t`, filled out past the array's end with zeros (a choice nothing reads). -/
def x0blk (c : Dev nD) (t : Fin cfg0.N) : S256x256.Idx → Elt Ideal .f32 :=
  win0_0.fill (grid0.coords t) (fun _ => (0 : EReal)) (iblk m c 0 t)

/-- After the body at point `t`: each input's buffer holds its block (the query block's on the rows inside the array),
    the result's the stored block. -/
def dats (_ : Fin 1) (c : Dev nD) : Dat τ (Elt Ideal) Unit ℕ (UR sig nD τ) ℕ cfg0 c where
  A w := V m c (Pipeline.arrRef spec0 w)
  after w t := match w with
    | ⟨0, _⟩ => x0blk m c t
    | ⟨1, _⟩ => iblk m c 1 t
    | ⟨2, _⟩ => iblk m c 2 t
    | ⟨3, _⟩ => iblk m c 3 t
    | ⟨4, _⟩ => iblk m c 4 t
    | ⟨5, _⟩ => outBlock (F := Ideal) (x0blk m c t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = x0blk m c t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t
    = outBlock (F := Ideal) (x0blk m c t) (iblk m c 1 t) (iblk m c 2 t) (iblk m c 3 t) (iblk m c 4 t) := by dsimp only [dats]

/-- The query window is fetched at every point: its buffer holds the block where the fetch landed, anything elsewhere. -/
theorem before0_0 (c : Dev nD) (t : Fin cfg0.N) (d) :
    (dats m 0 c).before 0 t d = win0_0.fill (grid0.coords t) d (iblk m c 0 t) := by
  unfold Dat.before; rw [if_pos (fetch0_0 t)]; rfl
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

def bodyPost (c : Dev nD) (t : Fin cfg0.N) : sProp 𝕄 :=
  iprop((dats m 0 c).Φ t.succ ∗ (dats m 0 c).owesAt () t.succ
    ∗ (∃ d, owns (c : Thread nD τ) (st0_0 t) fullShare
        ((cfg0.win 0).fill (grid0.coords t) d ((cfg0.win 0).cut (grid0.coords t) ((dats m 0 c).after 0 t))))
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (∃ d, owns (c : Thread nD τ) (st0_5 t) fullShare
        ((cfg0.win 5).fill (grid0.coords t) d ((cfg0.win 5).cut (grid0.coords t) ((dats m 0 c).after 5 t)))))

theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  have hx : (cfg0.win 0).cut (grid0.coords t) (x0blk m c t) = iblk m c 0 t := win0_0.cut_fill _ _ _
  rw [hx]
  iintro ⟨HΦ, Ho, ⟨%d0, H0⟩, ⟨%d1, H1⟩, ⟨%d2, H2⟩, ⟨%d3, H3⟩, ⟨%d4, H4⟩, ⟨%d5, H5⟩⟩
  have hD := win0_5.fill_congr_cut (grid0.coords t)
    (cut_out_indep t d0 (fun _ => (0 : EReal)) (iblk m c 0 t) (iblk m c 1 t) (iblk m c 2 t) (iblk m c 3 t) (iblk m c 4 t))
  iapply (sound_kernel c Set.univ _ _ _ _ _ _ _ _ _ _ _ _ _ (win0_0.fill (grid0.coords t) d0 (iblk m c 0 t)) (iblk m c 1 t) (iblk m c 2 t)
    (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexists d0; iexact H0
  isplitl [H1]; · iexact H1
  isplitl [H2]; · iexact H2
  isplitl [H3]; · iexact H3
  isplitl [H4]; · iexact H4
  iexists (outBlock (F := Ideal) (win0_0.fill (grid0.coords t) d0 (iblk m c 0 t)) (iblk m c 1 t) (iblk m c 2 t) (iblk m c 3 t) (iblk m c 4 t))
  change _ ⊢ owns (c : Thread nD τ) (st0_5 t) fullShare (win0_5.fill (grid0.coords t)
    (outBlock (F := Ideal) (win0_0.fill (grid0.coords t) d0 (iblk m c 0 t)) (iblk m c 1 t) (iblk m c 2 t) (iblk m c 3 t) (iblk m c 4 t))
    (win0_5.cut (grid0.coords t) (outBlock (F := Ideal) (x0blk m c t) (iblk m c 1 t) (iblk m c 2 t) (iblk m c 3 t) (iblk m c 4 t))))
  unfold x0blk
  refine Eq.mpr (congrArg (fun X => (_ ⊢ owns (c : Thread nD τ) (st0_5 t) fullShare X)) hD) ?_
  exact .rfl

theorem body_obligation (c : Dev nD) :
    BodyObligationLoose (dats m 0 c) (defs₀ (F := Ideal)) Variants.none () Set.univ := fun t => by
  rw [bigSep_W0, bigSep_W0]
  exact sound_body m c t

/-! ## The run and the frame -/

set_option backward.isDefEq.respectTransparency.types false in
theorem run_main : θ_run defs (onTc (τ := τ) (main (F := Ideal))) (s₀ m ρ) (Pipeline.FramePost cfgs (dats m) 0 (V m)) :=
  Pipeline.θ_run_frame cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

end Cert.KernelIdeal.Body

end
-- ==== Proof.IValue.lean ====
/-
  The idealized kernel's result array, in closed form over the ARGUMENT arrays.

  IFrame.lean's run leaves the result array at what the library computes from the proof data: block after block written
  back. Here: (1) what point `t` writes back is block `t` of ONE function of the arrays the region finds — entry `(i, d)`
  the attention row of row `i` of the queries — because the query block's rows inside the array are the array's rows
  `256·t + r` and the four resident blocks are whole arrays; (2) the blocks' parts inside the array cover every row
  (row `i` is in block `i / 256`); (3) the three arrays the host prepares before the region — the bias as a row, the keys
  `y · Wk + bk` and the values `y · Wv + bv` — read at an entry.
-/
import proofs.«149717_j17557826306423_2_alg».proof.Proof.IFrame
import Idealize.ShloMosaic.Lib.Pipeline.Value
import Idealize.ShloMosaic.Lib.StableHlo.Run
import Idealize.ShloMosaic.Lib.ValueLayout
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)
open Cert.KernelIdeal.Pay Cert.AttnSpec Idealize.ShloMosaic.ValueIdx Idealize.ShloMosaic.StableHlo

local notation "𝕄" => MT nD τ sig Unit (Elt Ideal) ℕ (UR sig nD τ) ℕ

variable (m : (ℓ : Loc nD τ sig) → Buf (Elt Ideal) ℓ) (ρ : Dev nD → PrngReg)

/-- The row and the column of an entry of the result. -/
abbrev rowOf (i : S50000x64.Idx) : Fin 50000 := ⟨(i 0).val, (i 0).isLt⟩
abbrev colOf (i : S50000x64.Idx) : Fin 64 := ⟨(i 1).val, (i 1).isLt⟩

/-- THE RESULT as one function of the five arrays the region stages: entry `(i, d)` is the attention row of query row `i`. -/
def result (x : S50000x256.Idx → EReal) (Wq : S256x64.Idx → EReal) (b2 : S1x64.Idx → EReal) (K V : S4096x64.Idx → EReal) :
    S50000x64.Idx → EReal :=
  fun i => attnRowMul cTenth (fun k => x (ix2 (rowOf i) k)) Wq (fun k => b2 (ix2 (0 : Fin 1) k)) K V (colOf i)

/-! ## The resident operands' one block is the whole array -/

theorem iblk1_eq (c : Dev nD) (t : Fin cfg0.N) : iblk m c 1 t = V m c main_arg2 := by
  obtain ⟨-, -, -, -, -, -, -, -, i0, i1, -⟩ := grid_facts t
  funext y
  show V m c main_arg2 (((cfg0.win 1).blk t).view.emb y) = V m c main_arg2 y
  refine congrArg _ (funext fun a => Fin.ext ?_)
  match a with
  | ⟨0, _⟩ => show win0_1.index t (0 : Fin 2) * 256 + 1 * (y 0).val = (y 0).val; omega
  | ⟨1, _⟩ => show win0_1.index t (1 : Fin 2) * 64 + 1 * (y 1).val = (y 1).val; omega

theorem iblk2_eq (c : Dev nD) (t : Fin cfg0.N) : iblk m c 2 t = V m c main_v0 := by
  obtain ⟨-, -, -, -, -, -, -, -, -, -, i0, i1, -⟩ := grid_facts t
  funext y
  show V m c main_v0 (((cfg0.win 2).blk t).view.emb y) = V m c main_v0 y
  refine congrArg _ (funext fun a => Fin.ext ?_)
  match a with
  | ⟨0, _⟩ => show win0_2.index t (0 : Fin 2) * 1 + 1 * (y 0).val = (y 0).val; omega
  | ⟨1, _⟩ => show win0_2.index t (1 : Fin 2) * 64 + 1 * (y 1).val = (y 1).val; omega

theorem iblk3_eq (c : Dev nD) (t : Fin cfg0.N) : iblk m c 3 t = V m c main_v9 := by
  obtain ⟨-, -, -, -, -, -, -, -, -, -, -, -, i0, i1, -⟩ := grid_facts t
  funext y
  show V m c main_v9 (((cfg0.win 3).blk t).view.emb y) = V m c main_v9 y
  refine congrArg _ (funext fun a => Fin.ext ?_)
  match a with
  | ⟨0, _⟩ => show win0_3.index t (0 : Fin 2) * 4096 + 1 * (y 0).val = (y 0).val; omega
  | ⟨1, _⟩ => show win0_3.index t (1 : Fin 2) * 64 + 1 * (y 1).val = (y 1).val; omega

theorem iblk4_eq (c : Dev nD) (t : Fin cfg0.N) : iblk m c 4 t = V m c main_v10 := by
  obtain ⟨-, -, -, -, -, -, -, -, -, -, -, -, -, -, i0, i1⟩ := grid_facts t
  funext y
  show V m c main_v10 (((cfg0.win 4).blk t).view.emb y) = V m c main_v10 y
  refine congrArg _ (funext fun a => Fin.ext ?_)
  match a with
  | ⟨0, _⟩ => show win0_4.index t (0 : Fin 2) * 4096 + 1 * (y 0).val = (y 0).val; omega
  | ⟨1, _⟩ => show win0_4.index t (1 : Fin 2) * 64 + 1 * (y 1).val = (y 1).val; omega

/-! ## What a point writes back -/

/-- WHAT POINT `t` WRITES BACK is block `t` of `result`, its part inside the array. -/
theorem flushed_eq (c : Dev nD) (t : Fin cfg0.N) :
    (dats m 0 c).flushed 5 t = ((cfg0.win 5).blk t).view.read (Elt Ideal)
      (result (V m c main_arg0) (V m c main_arg2) (V m c main_v0) (V m c main_v9) (V m c main_v10)) := by
  show (cfg0.win 5).cut (grid0.coords t) ((dats m 0 c).after 5 t) = _
  rw [after0_5, iblk1_eq, iblk2_eq, iblk3_eq, iblk4_eq]
  obtain ⟨i00, i01, i50, i51, xs0, xs01, xs51, xs50, -⟩ := grid_facts t
  funext j
  have hj0 : (j 0).val < win0_5.xsize (grid0.coords t) (0 : Fin 2) := (j 0).isLt
  have hj1 : (j 1).val < win0_5.xsize (grid0.coords t) (1 : Fin 2) := (j 1).isLt
  have hr : (j 0).val < 256 := by omega
  have hd : (j 1).val < 64 := by omega
  show outBlock (F := Ideal) _ _ _ _ _ (win0_5.xinj _ j) = result _ _ _ _ _ (((cfg0.win 5).blk t).view.emb j)
  rw [xinj5_eq t j hr hd, outBlock_eq, pay_apply]
  unfold result
  have hlt : ∀ (k : Fin 256) a, ((ix2 (⟨(j 0).val, hr⟩ : Fin 256) k : S256x256.Idx) a).val < win0_0.xsize (grid0.coords t) a := fun k a => by
    match a with
    | ⟨0, _⟩ => show (j 0).val < win0_0.xsize (grid0.coords t) (0 : Fin 2); omega
    | ⟨1, _⟩ => show k.val < win0_0.xsize (grid0.coords t) (1 : Fin 2); have := k.isLt; omega
  have hrow : ∀ k : Fin 256, x0blk m c t (ix2 (⟨(j 0).val, hr⟩ : Fin 256) k)
      = V m c main_arg0 (ix2 (rowOf (((cfg0.win 5).blk t).view.emb j)) k) := fun k => by
    unfold x0blk
    rw [fill_row t _ _ _ k (hlt k)]
    show V m c main_arg0 (((cfg0.win 0).blk t).view.emb _) = _
    refine congrArg _ (funext fun a => Fin.ext ?_)
    match a with
    | ⟨0, _⟩ => show win0_0.index t (0 : Fin 2) * 256 + 1 * (j 0).val = win0_5.index t (0 : Fin 2) * 256 + 1 * (j 0).val; omega
    | ⟨1, _⟩ => show win0_0.index t (1 : Fin 2) * 256 + 1 * k.val = k.val; omega
  have hcol : (⟨(j 1).val, hd⟩ : Fin 64) = colOf (((cfg0.win 5).blk t).view.emb j) :=
    Fin.ext (by show (j 1).val = win0_5.index t (1 : Fin 2) * 64 + 1 * (j 1).val; omega)
  exact (congrArg (fun xr => attnRowMul cTenth xr (V m c main_arg2) (fun k => V m c main_v0 (ix2 (0 : Fin 1) k)) (V m c main_v9) (V m c main_v10) _)
    (funext hrow)).trans (congrArg (attnRowMul cTenth _ (V m c main_arg2) (fun k => V m c main_v0 (ix2 (0 : Fin 1) k)) (V m c main_v9) (V m c main_v10)) hcol)

/-! ## The cover -/

theorem mem_blk5 (t : Fin cfg0.N) (i : S50000x64.Idx) :
    i ∈ ((cfg0.win 5).blk t).view.set ↔ ∀ a : Fin 2, win0_5.index t a * S256x64.size a ≤ (i a).val
      ∧ (i a).val < win0_5.index t a * S256x64.size a + win0_5.xsize (grid0.coords t) a := by
  show i ∈ ((View.whole main_v11).slice (win0_5.rect t)).set ↔ _
  rw [View.set_slice_whole, Rect.mem_set_unit]
  exact Iff.rfl

/-- Every row of the result is in some point's block, inside the array: row `i` in block `i / 256`. -/
theorem cover5 (i : S50000x64.Idx) : ∃ t : Fin cfg0.N, (cfg0.win 5).flush t = true ∧ i ∈ ((cfg0.win 5).blk t).view.set := by
  have hi0 : (i 0).val < 50000 := (i 0).isLt
  have hi1 : (i 1).val < 64 := (i 1).isLt
  have hN : (i 0).val / 256 < grid0.N := by rw [N_0]; omega
  obtain ⟨-, -, i50, i51, -, -, xs51, xs50, -⟩ := grid_facts ⟨(i 0).val / 256, hN⟩
  have ht : (⟨(i 0).val / 256, hN⟩ : Fin cfg0.N).val = (i 0).val / 256 := rfl
  refine ⟨⟨(i 0).val / 256, hN⟩, flush0_5 _, (mem_blk5 _ i).mpr fun a => ?_⟩
  match a with
  | ⟨0, _⟩ =>
    show win0_5.index ⟨(i 0).val / 256, hN⟩ (0 : Fin 2) * 256 ≤ (i 0).val
      ∧ (i 0).val < win0_5.index ⟨(i 0).val / 256, hN⟩ (0 : Fin 2) * 256 + win0_5.xsize (grid0.coords ⟨(i 0).val / 256, hN⟩) (0 : Fin 2)
    omega
  | ⟨1, _⟩ =>
    show win0_5.index ⟨(i 0).val / 256, hN⟩ (1 : Fin 2) * 64 ≤ (i 1).val
      ∧ (i 1).val < win0_5.index ⟨(i 0).val / 256, hN⟩ (1 : Fin 2) * 64 + win0_5.xsize (grid0.coords ⟨(i 0).val / 256, hN⟩) (1 : Fin 2)
    omega

/-- THE RESULT ARRAY after the run. -/
theorem final (c : Dev nD) : (dats m 0 c).arrAt 5 cfg0.N
    = result (V m c main_arg0) (V m c main_arg2) (V m c main_v0) (V m c main_v9) (V m c main_v10) :=
  (dats m 0 c).arrAt_eq_of_cover 5 _ (fun t _ => flushed_eq m c t) cover5

/-! ## The arrays the host prepares, at an entry -/

theorem hlhs_0 (i : S4096x64.Idx) (q : dot_S4096x7_S7x64_S4096x64_1_0_0_1_n_n.contr.Idx) : (dot_S4096x7_S7x64_S4096x64_1_0_0_1_n_n.lhsIdx i q 0).val = (i 0).val := by
  unfold DotDims.lhsIdx
  rw [dif_neg (show ¬(0 : Fin S4096x7.rank) ∈ dot_S4096x7_S7x64_S4096x64_1_0_0_1_n_n.lhsBatch by decide), dif_pos (show (0 : Fin S4096x7.rank) ∈ dot_S4096x7_S7x64_S4096x64_1_0_0_1_n_n.lhsNonContracting by decide)]
  rfl
theorem hlhs_1 (i : S4096x64.Idx) (q : dot_S4096x7_S7x64_S4096x64_1_0_0_1_n_n.contr.Idx) : (dot_S4096x7_S7x64_S4096x64_1_0_0_1_n_n.lhsIdx i q 1).val = (q ⟨0, by decide⟩).val :=
  dot_S4096x7_S7x64_S4096x64_1_0_0_1_n_n.lhsIdx_val_of_single rfl i q
theorem hrhs_0 (i : S4096x64.Idx) (q : dot_S4096x7_S7x64_S4096x64_1_0_0_1_n_n.contr.Idx) : (dot_S4096x7_S7x64_S4096x64_1_0_0_1_n_n.rhsIdx i q 0).val = (q ⟨0, by decide⟩).val :=
  dot_S4096x7_S7x64_S4096x64_1_0_0_1_n_n.rhsIdx_val_of_single rfl i q
theorem hrhs_1 (i : S4096x64.Idx) (q : dot_S4096x7_S7x64_S4096x64_1_0_0_1_n_n.contr.Idx) : (dot_S4096x7_S7x64_S4096x64_1_0_0_1_n_n.rhsIdx i q 1).val = (i 1).val := by
  unfold DotDims.rhsIdx
  rw [dif_neg (show ¬(1 : Fin S7x64.rank) ∈ dot_S4096x7_S7x64_S4096x64_1_0_0_1_n_n.rhsBatch by decide), dif_pos (show (1 : Fin S7x64.rank) ∈ dot_S4096x7_S7x64_S4096x64_1_0_0_1_n_n.rhsNonContracting by decide)]
  rfl

/-- A key (or value) projection computed on the host, at an entry: `y · W + b`, whatever precision was asked for. -/
theorem hostProj_apply (y : FVec Ideal S4096x7 .f32) (W : FVec Ideal S7x64 .f32) (b : FVec Ideal S64 .f32) (n : Fin 4096) (k : Fin 64) :
    (truncf .bf16 (addf (Host.dotGeneral dot_S4096x7_S7x64_S4096x64_1_0_0_1_n_n (some .fp32) y W)
        (broadcastInDim S4096x64 ![0, 1] bcast_S1x64_S4096x64_0_1 (broadcastInDim S1x64 ![1] bcast_S64_S1x64_1 b))) bitsLt_bf16_f32
      : FVec Ideal S4096x64 .bf16) (ix2 n k) = keyProj y W b (ix2 n k) := by
  rw [keyProj_apply, truncf_apply, addf_apply]
  refine congrArg₂ (· + ·) ?_ ?_
  · simp only [Host.dotGeneral]
    rw [Ideal.dotGeneral_apply, ← Equiv.sum_comp (ValueIdx.contrEquiv1 dot_S4096x7_S7x64_S4096x64_1_0_0_1_n_n 7 rfl rfl).symm]
    refine Finset.sum_congr rfl fun q _ => ?_
    have hk := ValueIdx.contrEquiv1_symm_val dot_S4096x7_S7x64_S4096x64_1_0_0_1_n_n 7 rfl rfl q
    have el : dot_S4096x7_S7x64_S4096x64_1_0_0_1_n_n.lhsIdx (ix2 n k) ((ValueIdx.contrEquiv1 dot_S4096x7_S7x64_S4096x64_1_0_0_1_n_n 7 rfl rfl).symm q) = ix2 n q := funext fun a => Fin.ext (by
      match a with
      | ⟨0, _⟩ => exact hlhs_0 _ _
      | ⟨1, _⟩ => exact (hlhs_1 _ _).trans hk)
    have er : dot_S4096x7_S7x64_S4096x64_1_0_0_1_n_n.rhsIdx (ix2 n k) ((ValueIdx.contrEquiv1 dot_S4096x7_S7x64_S4096x64_1_0_0_1_n_n 7 rfl rfl).symm q) = ix2 q k := funext fun a => Fin.ext (by
      match a with
      | ⟨0, _⟩ => exact (hrhs_0 _ _).trans hk
      | ⟨1, _⟩ => exact hrhs_1 _ _)
    rw [el, er]
  · rw [broadcastInDim_apply _ bcast_S1x64_S4096x64_0_1 _ (ix2 n k) (ix2 (0 : Fin 1) k) (fun a => match a with
      | ⟨0, _⟩ => by show 0 = if (1 : Nat) = 1 then 0 else n.val; rw [if_pos rfl]
      | ⟨1, _⟩ => by show k.val = if (64 : Nat) = 1 then 0 else k.val; rw [if_neg (by decide)]),
      broadcastInDim_apply _ bcast_S64_S1x64_1 b (ix2 (0 : Fin 1) k) (ix1 k) (fun a => match a with
      | ⟨0, _⟩ => by show k.val = if (64 : Nat) = 1 then 0 else k.val; rw [if_neg (by decide)])]

/-- The keys the region finds. -/
theorem V_keys (c : Dev nD) : (V m c main_v9 : S4096x64.Idx → EReal)
    = keyProj (m ((c.tc : Thread nD τ).loc main_arg1)) (m ((c.tc : Thread nD τ).loc main_arg4)) (m ((c.tc : Thread nD τ).loc main_arg5)) := by
  have e : (V m c main_v9 : S4096x64.Idx → EReal) = (truncf .bf16 (addf (Host.dotGeneral (φ₁ := .f32) (φ₂ := .f32) dot_S4096x7_S7x64_S4096x64_1_0_0_1_n_n (some .fp32)
      (m ((c.tc : Thread nD τ).loc main_arg1)) (m ((c.tc : Thread nD τ).loc main_arg4)))
        (broadcastInDim S4096x64 ![0, 1] bcast_S1x64_S4096x64_0_1 (broadcastInDim S1x64 ![1] bcast_S64_S1x64_1 (m ((c.tc : Thread nD τ).loc main_arg5)))))
          bitsLt_bf16_f32 : FVec Ideal S4096x64 .bf16) := by
    dsimp only [V, hostOps0]; after_results
  rw [e]
  funext p
  rw [eq_ix2 p]
  exact hostProj_apply _ _ _ _ _

/-- The values the region finds. -/
theorem V_vals (c : Dev nD) : (V m c main_v10 : S4096x64.Idx → EReal)
    = keyProj (m ((c.tc : Thread nD τ).loc main_arg1)) (m ((c.tc : Thread nD τ).loc main_arg6)) (m ((c.tc : Thread nD τ).loc main_arg7)) := by
  have e : (V m c main_v10 : S4096x64.Idx → EReal) = (truncf .bf16 (addf (Host.dotGeneral (φ₁ := .f32) (φ₂ := .f32) dot_S4096x7_S7x64_S4096x64_1_0_0_1_n_n (some .fp32)
      (m ((c.tc : Thread nD τ).loc main_arg1)) (m ((c.tc : Thread nD τ).loc main_arg6)))
        (broadcastInDim S4096x64 ![0, 1] bcast_S1x64_S4096x64_0_1 (broadcastInDim S1x64 ![1] bcast_S64_S1x64_1 (m ((c.tc : Thread nD τ).loc main_arg7)))))
          bitsLt_bf16_f32 : FVec Ideal S4096x64 .bf16) := by
    dsimp only [V, hostOps0]; after_results
  rw [e]
  funext p
  rw [eq_ix2 p]
  exact hostProj_apply _ _ _ _ _

/-- The bias row the region finds. -/
theorem V_bias (c : Dev nD) (k : Fin 64) : V m c main_v0 (ix2 (0 : Fin 1) k) = m ((c.tc : Thread nD τ).loc main_arg3) (ix1 k) := by
  have e : (V m c main_v0 : S1x64.Idx → EReal) = shapeCast S1x64 (m ((c.tc : Thread nD τ).loc main_arg3)) shapeCasts_S64_S1x64 := by
    dsimp only [V, hostOps0]; after_results; rfl
  exact (congrFun e _).trans (shapeCast_a_1a_apply _ _ _ _)

/-- THE RESULT over the argument arrays: entry `(i, d)` is the attention row of row `i` of `x`, projected by `Wq`, `bq`,
    against the keys `y · Wk + bk` and the values `y · Wv + bv`. -/
def resultOfArgs (c : Dev nD) : S50000x64.Idx → EReal := fun i =>
  attnRowMul cTenth (fun k => m ((c.tc : Thread nD τ).loc main_arg0) (ix2 (rowOf i) k)) (m ((c.tc : Thread nD τ).loc main_arg2))
    (fun k => m ((c.tc : Thread nD τ).loc main_arg3) (ix1 k))
    (keyProj (m ((c.tc : Thread nD τ).loc main_arg1)) (m ((c.tc : Thread nD τ).loc main_arg4)) (m ((c.tc : Thread nD τ).loc main_arg5)))
    (keyProj (m ((c.tc : Thread nD τ).loc main_arg1)) (m ((c.tc : Thread nD τ).loc main_arg6)) (m ((c.tc : Thread nD τ).loc main_arg7)))
    (colOf i)

theorem final_args (c : Dev nD) : (dats m 0 c).arrAt 5 cfg0.N = resultOfArgs m c := by
  rw [final]
  funext i
  unfold result resultOfArgs
  rw [V_keys, V_vals, V_main_arg0, V_main_arg2]
  exact congrArg (fun b => attnRowMul cTenth _ _ b _ _ _) (funext fun k => V_bias m c k)

/-- The run, read: the result array ends at `resultOfArgs`, the arguments as they were. -/
theorem run : θ_run defs (onTc (τ := τ) (main (F := Ideal))) ⟨m, fun _ => 0, ρ⟩ (fun r => ∀ c : Dev nD,
      r.2.mem ((c.tc : Thread nD τ).loc main_v11) = resultOfArgs m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨((h c).1 5).trans (final_args m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).1 1).trans (((dats m 0 c).arrAt_in 1 rfl _).trans ((A_eq m c 1).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c)⟩) (run_main m ρ)

end Cert.KernelIdeal.Body

end
-- ==== Proof.LibHostReduceMax.lean ====
/-
  The host's reduction with a maximum body over one axis, read at an index.
-/
import Idealize.ShloMosaic.PureOps.Ideal
import Idealize.ShloMosaic.PureOps.Ideal.Laws
import Idealize.ShloMosaic.PureOps.Reduce

noncomputable section

namespace Cert.ReferenceIdeal.RefValue

open Idealize.ShloMosaic

/-- The host's reduction with a maximum body over ONE axis, from an initial value that is −∞, read at an index: the
    fold of max from ⊥ over that axis's coordinates (the reduced index with the coordinate inserted). -/
theorem hostReduce_max_single {s t u : Shape} {a : Fin s.rank} (x : s.Idx → EReal) (init : u.Idx → EReal)
    (h' : s.ReducesTo [a] t) (h : s.Reduces [a] t) (hu : 0 < u.numel) (j : t.Idx) (hinit : init (Shape.Idx.first hu) = ⊥) :
    Host.reduce (FloatOps.maximumf (F := Ideal) (φ := .f32)) x init h' hu j
      = (Finset.univ : Finset (Fin (s.size a))).fold max ⊥ (fun k => x (h.lift j k)) := by
  rw [Host.reduce_eq_fold_single (FloatOps.maximumf (F := Ideal) (φ := .f32)) x init h' h hu j, hinit]
  rfl

end Cert.ReferenceIdeal.RefValue

end
-- ==== Proof.RefIs.lean ====
/-
  The reference, read at an entry: its result at `(i, d)` is the attention row of row `i` of the queries, the weights
  taken by quotients (`attnRowDiv`, Spec2.lean), over the keys `y · Wk + bk` and the values `y · Wv + bv`. Read one
  operation at a time through the generated stage lemmas; the row maximum is the one stage read by hand (a fold of max
  from −∞, which the later `maximum` with a −∞ splat does not change).
-/
import proofs.«149717_j17557826306423_2_alg».proof.Proof.Gen.ReferenceIdeal.Read
import proofs.«149717_j17557826306423_2_alg».proof.Proof.Spec2
import proofs.«149717_j17557826306423_2_alg».proof.Proof.LibHostReduceMax
import Idealize.ShloMosaic.Lib.ValueIdx

noncomputable section

namespace Cert.ReferenceIdeal.RefValue

open Cert.ReferenceIdeal Cert.ReferenceIdeal.Gen Cert.ReferenceIdeal.Read Cert.AttnSpec
open Idealize.ShloMosaic Idealize.ShloMosaic.ValueIdx

/-- Two indices with the same coordinates are equal: decided coordinate by coordinate. -/
macro "ix_eq" : tactic =>
  `(tactic| (funext a; apply Fin.ext; first
      | (match a with
          | ⟨0, _⟩ => rfl
          | ⟨1, _⟩ => rfl)
      | (match a with
          | ⟨0, _⟩ => rfl)))

abbrev cTenth : EReal := Ideal.ofBits .f32 0x3DCCCCCD#32

theorem ofBits_neg_inf : Ideal.ofBits .f32 0xFF800000#32 = ⊥ := by
  simp [Ideal.ofBits, Ideal.ieee]

variable (x0 : (⟨S50000x256, .f32⟩ : BufTy).Contents (Elt Ideal)) (x1 : (⟨S4096x7, .f32⟩ : BufTy).Contents (Elt Ideal))
  (x2 : (⟨S256x64, .f32⟩ : BufTy).Contents (Elt Ideal)) (x3 : (⟨S64, .f32⟩ : BufTy).Contents (Elt Ideal))
  (x4 : (⟨S7x64, .f32⟩ : BufTy).Contents (Elt Ideal)) (x5 : (⟨S64, .f32⟩ : BufTy).Contents (Elt Ideal))
  (x6 : (⟨S7x64, .f32⟩ : BufTy).Contents (Elt Ideal)) (x7 : (⟨S64, .f32⟩ : BufTy).Contents (Elt Ideal))

/-- The keys, at an entry. -/
theorem keys_apply (n : Fin 4096) (k : Fin 64) : val_main_v7 (F := Ideal) x1 x4 x5 (ix2 n k) = keyProj x1 x4 x5 (ix2 n k) := by
  rw [keyProj_apply, val_main_v7_apply, val_main_v4_apply, val_main_v6_apply, val_main_v5_apply]
  exact congrArg₂ (· + ·) (Finset.sum_congr rfl fun q _ => congrArg₂ (· * ·) (congrArg x1 (by ix_eq)) (congrArg x4 (by ix_eq)))
    (congrArg x5 (by ix_eq))

/-- The values, at an entry. -/
theorem vals_apply (n : Fin 4096) (k : Fin 64) : val_main_v11 (F := Ideal) x1 x6 x7 (ix2 n k) = keyProj x1 x6 x7 (ix2 n k) := by
  rw [keyProj_apply, val_main_v11_apply, val_main_v8_apply, val_main_v10_apply, val_main_v9_apply]
  exact congrArg₂ (· + ·) (Finset.sum_congr rfl fun q _ => congrArg₂ (· * ·) (congrArg x1 (by ix_eq)) (congrArg x6 (by ix_eq)))
    (congrArg x7 (by ix_eq))

/-- The projected queries, at an entry. -/
theorem query_apply (i : Fin 50000) (k : Fin 64) :
    val_main_v3 (F := Ideal) x0 x2 x3 (ix2 i k) = qRow (fun j => x0 (ix2 i j)) x2 (fun k => x3 (ix1 k)) k := by
  unfold qRow
  rw [val_main_v3_apply, val_main_v0_apply, val_main_v2_apply, val_main_v1_apply]
  exact congrArg₂ (· + ·) (Finset.sum_congr rfl fun q _ => congrArg₂ (· * ·) (congrArg x0 (by ix_eq)) (congrArg x2 (by ix_eq)))
    (congrArg x3 (by ix_eq))

/-- Row `i`'s scores. -/
abbrev scores (i : Fin 50000) : Fin 4096 → EReal :=
  scoreRow (qRow (fun j => x0 (ix2 i j)) x2 (fun k => x3 (ix1 k))) (keyProj x1 x4 x5)

theorem score_apply (i : Fin 50000) (n : Fin 4096) :
    val_main_v13 (F := Ideal) x0 x1 x2 x3 x4 x5 (ix2 i n) = scores x0 x1 x2 x3 x4 x5 i n := by
  unfold scores scoreRow
  rw [val_main_v13_apply]
  refine Finset.sum_congr rfl fun k _ => congrArg₂ (· * ·) ?_ ?_
  · rw [show lidx_main_v13 (ix2 i n) k = ix2 i k by ix_eq]; exact query_apply x0 x2 x3 i k
  · rw [val_main_v12_apply, show idx_main_v12 (ridx_main_v13 (ix2 i n) k) = ix2 n k by ix_eq]; exact keys_apply x1 x4 x5 n k

theorem lift_ix (i : Fin 50000) (k : Fin 4096) (h : S50000x4096.Reduces [1] S50000) : h.lift (ix1 i) k = ix2 i k :=
  funext fun a => Fin.ext (by match a with | ⟨0, _⟩ => rfl | ⟨1, _⟩ => rfl)

/-- The row maximum. -/
theorem max_apply (i : Fin 50000) : val_main_v16 (F := Ideal) x0 x1 x2 x3 x4 x5 (ix1 i) = rowMax (scores x0 x1 x2 x3 x4 x5 i) := by
  rw [val_main_v16_apply, val_main_v15_apply, val_main_cst_0_apply]
  unfold val_main_v14
  rw [hostReduce_max_single (val_main_v13 (F := Ideal) x0 x1 x2 x3 x4 x5) (val_main_cst (F := Ideal)) reducesTo_S50000x4096_S50000_d1 (by decide) h_S_ (ix1 i)
    (by rw [val_main_cst_apply]; exact ofBits_neg_inf)]
  show max (Ideal.ofBits .f32 0xFF800000#32) _ = _
  rw [ofBits_neg_inf, max_eq_right bot_le]
  unfold rowMax
  exact congrArg (fun f => Finset.fold max ⊥ f Finset.univ) (funext fun k =>
    (congrArg (val_main_v13 (F := Ideal) x0 x1 x2 x3 x4 x5) (lift_ix i k _)).trans (score_apply x0 x1 x2 x3 x4 x5 i k))

/-- The shifted exponentials. -/
theorem exp_apply (i : Fin 50000) (n : Fin 4096) :
    val_main_v20 (F := Ideal) x0 x1 x2 x3 x4 x5 (ix2 i n) = ex (scores x0 x1 x2 x3 x4 x5 i) n := by
  unfold ex
  rw [val_main_v20_apply, val_main_v19_apply, val_main_v18_apply, val_main_v17_apply,
    show idx_main_v17 (idx_main_v18 (ix2 i n)) = ix1 i by ix_eq, max_apply, score_apply]
  rfl

/-- The softmax entries. -/
theorem softmax_apply (i : Fin 50000) (n : Fin 4096) :
    val_main_v24 (F := Ideal) x0 x1 x2 x3 x4 x5 (ix2 i n)
      = Ideal.div (ex (scores x0 x1 x2 x3 x4 x5 i) n) (∑ k, ex (scores x0 x1 x2 x3 x4 x5 i) k) := by
  rw [val_main_v24_apply, val_main_v23_apply, val_main_v22_apply, show idx_main_v22 (idx_main_v23 (ix2 i n)) = ix1 i by ix_eq,
    val_main_v21_apply, val_main_cst_1_apply, exp_apply]
  show Ideal.div _ (Ideal.ofBits .f32 0x00000000#32 + _) = _
  rw [Ideal.ofBits_zero_f32, zero_add]
  exact congrArg (Ideal.div _) (Finset.sum_congr rfl fun k _ => by
    rw [show idx_main_v21 (ix1 i) k = ix2 i k by ix_eq]; exact exp_apply x0 x1 x2 x3 x4 x5 i k)

/-- The blended numerators. -/
theorem num_apply (i : Fin 50000) (n : Fin 4096) :
    val_main_v28 (F := Ideal) x0 x1 x2 x3 x4 x5 (ix2 i n) = numDiv cTenth (scores x0 x1 x2 x3 x4 x5 i) n := by
  unfold numDiv
  rw [val_main_v28_apply, val_main_v27_apply, val_main_v25_apply, val_main_v26_apply, val_main_cst_2_apply,
    val_main_call0_v0_apply, val_main_call0_cst_apply, softmax_apply, score_apply]
  show max _ (Ideal.ofBits .f32 0x00000000#32) * _ + _ = _
  rw [Ideal.ofBits_zero_f32]
  rfl

/-- The weights. -/
theorem weight_apply (i : Fin 50000) (n : Fin 4096) :
    val_main_v32 (F := Ideal) x0 x1 x2 x3 x4 x5 (ix2 i n) = wDiv cTenth (scores x0 x1 x2 x3 x4 x5 i) n := by
  unfold wDiv
  rw [val_main_v32_apply, val_main_v31_apply, val_main_v30_apply, show idx_main_v30 (idx_main_v31 (ix2 i n)) = ix1 i by ix_eq,
    val_main_v29_apply, val_main_cst_3_apply, num_apply]
  show Ideal.div _ (Ideal.ofBits .f32 0x00000000#32 + _) = _
  rw [Ideal.ofBits_zero_f32, zero_add]
  exact congrArg (Ideal.div _) (Finset.sum_congr rfl fun k _ => by
    rw [show idx_main_v29 (ix1 i) k = ix2 i k by ix_eq]; exact num_apply x0 x1 x2 x3 x4 x5 i k)

/-- THE REFERENCE AT AN ENTRY. -/
theorem result_apply (i : Fin 50000) (d : Fin 64) :
    val_main_v33 (F := Ideal) x0 x1 x2 x3 x4 x5 x6 x7 (ix2 i d)
      = attnRowDiv cTenth (fun j => x0 (ix2 i j)) x2 (fun k => x3 (ix1 k)) (keyProj x1 x4 x5) (keyProj x1 x6 x7) d := by
  unfold attnRowDiv outRow
  rw [val_main_v33_apply]
  refine Finset.sum_congr rfl fun n _ => congrArg₂ (· * ·) ?_ ?_
  · rw [show lidx_main_v33 (ix2 i d) n = ix2 i n by ix_eq]; exact weight_apply x0 x1 x2 x3 x4 x5 i n
  · rw [show ridx_main_v33 (ix2 i d) n = ix2 n d by ix_eq]; exact vals_apply x1 x6 x7 n d

end Cert.ReferenceIdeal.RefValue

end
-- ==== Proof.LibFiniteEntries.lean ====
/-
  "Every entry is finite", decoded on the extended reals. A precondition `all(|a| < +∞)` prints as a reduction by `and`,
  into a rank-0 result, of the comparison of `|a|` with the f32 word of +∞ spread over the array's shape. When that
  reduction is 1, every entry of `a` is a real number: neither −∞ nor +∞.
-/
import Idealize.ShloMosaic.PureOps.Ideal
import Idealize.ShloMosaic.Lib.ReduceAll
import Idealize.ShloMosaic.Lib.ValueIdx

noncomputable section

namespace Cert.FiniteEntries

open Idealize.ShloMosaic

/-- The rank-0 shape has one index. -/
instance : Subsingleton (⟨0, ![]⟩ : Shape).Idx := ⟨fun a b => funext fun d => d.elim0⟩

/-- An entry whose absolute value compares below the f32 word of +∞ is real. -/
theorem elt_real (x : EReal)
    (h : FloatOps.cmpf (F := Ideal) (φ := .f32) .olt (FloatOps.hostAbsf (F := Ideal) (φ := .f32) x) (Ideal.ofBits .f32 0x7F800000#32) = 1#1) :
    x ≠ ⊥ ∧ x ≠ ⊤ := by
  have htop : Ideal.ofBits .f32 0x7F800000#32 = ⊤ := by simp [Ideal.ofBits, Ideal.ieee]
  rw [htop] at h
  have hlt : max x (-x) < ⊤ := by
    by_contra hn
    have h0 : FloatOps.cmpf (F := Ideal) (φ := .f32) .olt (FloatOps.hostAbsf (F := Ideal) (φ := .f32) x) (⊤ : EReal) = 0#1 := by
      show BitVec.ofBool (decide (max x (-x) < ⊤)) = 0#1
      rw [decide_eq_false hn]; rfl
    rw [h0] at h; exact absurd h (by decide)
  constructor
  · rintro rfl; simp at hlt
  · rintro rfl; simp at hlt

/-- An f32 array whose `all(|a| < +∞)` is 1 has real entries. -/
theorem arr_real {s : Shape} {axes : List (Fin s.rank)} (a : FVec Ideal s .f32)
    (hb : (⟨0, ![]⟩ : Shape).BroadcastsInDim s (![] : Fin 0 → Fin s.rank))
    (hr : s.ReducesTo axes (⟨0, ![]⟩ : Shape)) (hu : 0 < (⟨0, ![]⟩ : Shape).numel)
    (e : Host.reduce IntOp.andi (cmpf .olt (Host.absf a) (broadcastInDim s ![] hb (constant (⟨0, ![]⟩ : Shape) .f32 0x7F800000#32)))
      (constantI (⟨0, ![]⟩ : Shape) 1 1#1) hr hu ValueIdx.ix0 = 1#1) (i : s.Idx) : a i ≠ ⊥ ∧ a i ≠ ⊤ :=
  elt_real (a i) (Host.reduce_andi_all _ _ hr hu _ e i)

end Cert.FiniteEntries

end
-- ==== Proof.Finite.lean ====
/-
  The precondition, decoded: `finite_inputs` says of each input array that every entry's absolute value is below +∞;
  on the extended reals that is "the entry is a real number" (neither −∞ nor +∞).
-/
import proofs.«149717_j17557826306423_2_alg».proof.Pre_finite_inputs
import proofs.«149717_j17557826306423_2_alg».proof.Proof.Gen.Pre_finite_inputs
import Idealize.ShloMosaic.PureOps.Ideal
import Idealize.ShloMosaic.Lib.ReduceAll
import Idealize.ShloMosaic.Lib.Affine
import Idealize.ShloMosaic.Lib.ValueIdx
import proofs.«149717_j17557826306423_2_alg».proof.Proof.LibFiniteEntries

noncomputable section

namespace Cert.Finite

open Cert.Pre_finite_inputs Idealize.ShloMosaic Cert.FiniteEntries

variable [Facts]

/-- THE DECODED PRECONDITION: the first six arrays — queries, key inputs, query projection and bias, key projection and
    bias — have real entries. (So have the last two; the proof does not need them.) -/
theorem finite_of_pre (a0 : FVec Ideal S50000x256 .f32) (a1 : FVec Ideal S4096x7 .f32) (a2 : FVec Ideal S256x64 .f32) (a3 : FVec Ideal S64 .f32)
    (a4 : FVec Ideal S7x64 .f32) (a5 : FVec Ideal S64 .f32) (a6 : FVec Ideal S7x64 .f32) (a7 : FVec Ideal S64 .f32)
    (h : fn (F := Ideal) a0 a1 a2 a3 a4 a5 a6 a7 = fun _ => 1#1) :
    (∀ i, a0 i ≠ ⊥ ∧ a0 i ≠ ⊤) ∧ (∀ i, a1 i ≠ ⊥ ∧ a1 i ≠ ⊤) ∧ (∀ i, a2 i ≠ ⊥ ∧ a2 i ≠ ⊤) ∧ (∀ i, a3 i ≠ ⊥ ∧ a3 i ≠ ⊤)
      ∧ (∀ i, a4 i ≠ ⊥ ∧ a4 i ≠ ⊤) ∧ (∀ i, a5 i ≠ ⊥ ∧ a5 i ≠ ⊤) := by
  have h0 := congrFun h ValueIdx.ix0
  dsimp only [fn, fn_part1, fn_part2] at h0
  have step : ∀ (p q : IVec S_ 1), andi p q ValueIdx.ix0 = 1#1 → p ValueIdx.ix0 = 1#1 ∧ q ValueIdx.ix0 = 1#1 :=
    fun p q e => IntOp.andi_eq_one.mp e
  obtain ⟨h6, e7⟩ := step _ _ h0
  obtain ⟨h5, e6⟩ := step _ _ h6
  obtain ⟨h4, e5⟩ := step _ _ h5
  obtain ⟨h3, e4⟩ := step _ _ h4
  obtain ⟨h2, e3⟩ := step _ _ h3
  obtain ⟨h1, e2⟩ := step _ _ h2
  obtain ⟨e0, e1⟩ := step _ _ h1
  exact ⟨arr_real a0 _ _ _ e0, arr_real a1 _ _ _ e1, arr_real a2 _ _ _ e2, arr_real a3 _ _ _ e3, arr_real a4 _ _ _ e4,
    arr_real a5 _ _ _ e5⟩

end Cert.Finite

end
-- ==== Proof.lean ====
/-
  The certificate of a fused cross-attention kernel against its jnp reference.

  Both programs compute, for each of 50000 query rows `x_i` (256 wide): the projected query `q = x_i · Wq + bq`, its
  scores `M_n = q · K_n` against 4096 keys `K = y · Wk + bk`, the weights `w = num / Σ num` with
  `num_n = relu(M_n) · 0.1 + softmax(M)_n`, and the output row `Σ_n w_n · V_n` over the values `V = y · Wv + bv`.
  The kernel does this 256 rows at a time on a grid of 196 points (the last block overhangs the arrays by 176 rows, which
  are staged as unnamed words and never written back), takes the softmax and the renormalisation by reciprocals
  (`e · (1/Σe)`, `num · (1/Σnum)`) where the reference divides, and narrows its matrix operands to bf16, which is the
  identity on the extended reals.

  * The three frames: the word-level kernel's with every staging buffer's contents left unnamed (KFrame.lean); the
    idealized kernel's from the run that also names the result (IFrame.lean); the reference's from its generated run.
  * `preserves`: the idealization rewrote nothing.
  * `algebraic`: the kernel's result array is `resultOfArgs` (IValue.lean: the payload at an entry, IPay.lean; the blocks
    cover the rows); the reference's result at an entry is the same row with quotients (RefIs.lean, over the generated
    stage lemmas); a product with a reciprocal is a quotient off a zero divisor, and both row sums are positive when the
    scores are real (Spec.lean), which they are for finite inputs (Finite.lean decodes the precondition).
-/
import proofs.«149717_j17557826306423_2_alg».proof.Defs
import proofs.«149717_j17557826306423_2_alg».proof.Proof.Gen.Kernel
import proofs.«149717_j17557826306423_2_alg».proof.Proof.Gen.Kernel.Skeleton
import proofs.«149717_j17557826306423_2_alg».proof.Proof.Gen.Kernel.Launch
import proofs.«149717_j17557826306423_2_alg».proof.Proof.Gen.Kernel.Points
import proofs.«149717_j17557826306423_2_alg».proof.Proof.Gen.Kernel.Frame
import proofs.«149717_j17557826306423_2_alg».proof.Proof.Gen.KernelIdeal
import proofs.«149717_j17557826306423_2_alg».proof.Proof.Gen.KernelIdeal.Skeleton
import proofs.«149717_j17557826306423_2_alg».proof.Proof.Gen.KernelIdeal.Launch
import proofs.«149717_j17557826306423_2_alg».proof.Proof.Gen.KernelIdeal.Points
import proofs.«149717_j17557826306423_2_alg».proof.Proof.Gen.KernelIdeal.Frame
import proofs.«149717_j17557826306423_2_alg».proof.Proof.Gen.ReferenceIdeal
import proofs.«149717_j17557826306423_2_alg».proof.Proof.Gen.Pre_finite_inputs
import proofs.«149717_j17557826306423_2_alg».proof.Proof.Gen.ReferenceIdeal.Run
import proofs.«149717_j17557826306423_2_alg».proof.Proof.Gen.ReferenceIdeal.Read
import proofs.«149717_j17557826306423_2_alg».proof.Proof.KFrame
import proofs.«149717_j17557826306423_2_alg».proof.Proof.IValue
import proofs.«149717_j17557826306423_2_alg».proof.Proof.RefIs
import proofs.«149717_j17557826306423_2_alg».proof.Proof.Finite
import Idealize.ShloMosaic.Adequacy
import Idealize.ShloMosaic.Init

noncomputable section

namespace Cert.Proof

open Idealize.ShloMosaic Idealize.ShloMosaic.TcCoe Idealize.SL.Sem Idealize.ShloMosaic.ValueIdx Cert.AttnSpec

theorem frame_k : Cert.frame_Kernel := fun m ρ _ => Cert.Kernel.Body.frame m ρ

theorem frame_ki : Cert.frame_KernelIdeal := fun m ρ _ => Cert.KernelIdeal.Body.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The two blend constants are one word. -/
theorem cTenth_eq : Cert.ReferenceIdeal.RefValue.cTenth = Cert.KernelIdeal.Pay.cTenth := rfl

theorem algebraic : Cert.algebraic_KernelIdeal_ReferenceIdeal := by
  intro m ρ m' ρ' hpre hagree
  refine ⟨fun c => Cert.KernelIdeal.Body.resultOfArgs m c, Cert.KernelIdeal.Body.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  obtain ⟨f0, f1, f2, f3, f4, f5⟩ := Cert.Finite.finite_of_pre _ _ _ _ _ _ _ _ (hpre c)
  rw [Cert.ReferenceIdeal.Read.val_main_v33_eq, a0, a1, a2, a3, a4, a5, a6, a7]
  funext i
  have hi : i = ix2 (Cert.KernelIdeal.Body.rowOf i) (Cert.KernelIdeal.Body.colOf i) :=
    funext fun a => Fin.ext (by match a with | ⟨0, _⟩ => rfl | ⟨1, _⟩ => rfl)
  unfold Cert.KernelIdeal.Body.resultOfArgs
  beta_reduce
  rw [attnRowMul_eq_attnRowDiv _ Cert.KernelIdeal.Pay.cTenth_nonneg _ _ _ _ _ (fun j => f0 _) f2 (fun k => f3 _)
    (keyProj_real _ _ _ f1 f4 f5)]
  conv_lhs => rw [hi]
  exact Cert.ReferenceIdeal.RefValue.result_apply _ _ _ _ _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
